-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x16384 : Shape := ⟨2, ![16384, 16384]⟩
abbrev S128x128 : Shape := ⟨2, ![128, 128]⟩
abbrev S128 : Shape := ⟨1, ![128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S16384x128 .f32) (main_arg1 : FVec F S16384x16384 .f32) (main_arg2 : FVec F S128x128 .f32) (main_arg3 : FVec F S128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S16384x128 : Shape := ⟨2, ![16384, 128]⟩
abbrev S16384x16384 : Shape := ⟨2, ![16384, 16384]⟩
abbrev S128x128 : Shape := ⟨2, ![128, 128]⟩
abbrev S128 : Shape := ⟨1, ![128]⟩
abbrev S1024x2048 : Shape := ⟨2, ![1024, 2048]⟩
abbrev S1024x128 : Shape := ⟨2, ![1024, 128]⟩
abbrev S2048x128 : Shape := ⟨2, ![2048, 128]⟩
abbrev S1x128 : Shape := ⟨2, ![1, 128]⟩

abbrev nBuf : Space → Nat
  | .hbm => 6
  | .vmem => 16
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x128, .f32⟩
  | .hbm, ⟨3, _⟩ => ⟨S128, .f32⟩
  | .hbm, ⟨4, _⟩ => ⟨S16384x128, .f32⟩
  | .hbm, ⟨5, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S16384x128, .f32⟩
  | .local _ .vmem, ⟨3, _⟩ => ⟨S128x128, .f32⟩
  | .local _ .vmem, ⟨4, _⟩ => ⟨S128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x2048, .f32⟩
  | .local _ .vmem, ⟨9, _⟩ => ⟨S1024x2048, .f32⟩
  | .local _ .vmem, ⟨10, _⟩ => ⟨S16384x128, .f32⟩
  | .local _ .vmem, ⟨11, _⟩ => ⟨S128x128, .f32⟩
  | .local _ .vmem, ⟨12, _⟩ => ⟨S128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c2048_i32 : BitVec 32 := 2048#32
  let v5 : BitVec 32 := Scalar.muli arg1 c2048_i32
  v5
def k0_off1 (i : grid0.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k0_cond2 (i : grid0.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![16, 8], ![false, false]⟩

def k1_mult1 (i : grid1.Coords) : BitVec 32 :=
  let arg1 : BitVec 32 := BitVec.ofNat 32 (i 1).val
  let c2048_i32 : BitVec 32 := 2048#32
  let v5 : BitVec 32 := Scalar.muli arg1 c2048_i32
  v5
def k1_off1 (i : grid1.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k1_cond2 (i : grid1.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_7 : BitVec 32 := 0#32
  let v19 : BitVec 1 := Scalar.cmpi .ne v18 c0_i32_7
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16384x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  h_S2048x128 : 0 < S2048x128.numel
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  shapeCasts_S2048x128_S2048x128 : S2048x128.ShapeCasts S2048x128
  dot_S1024x2048_S2048x128_S1024x128_1_0_0_1_n_n_wf : DotDims.WF S1024x2048 S2048x128 S1024x128 [1] [0] [0] [1] [] []
  dot_S1024x128_S128x128_S1024x128_1_0_0_1_n_n_wf : DotDims.WF S1024x128 S128x128 S1024x128 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x128.size a ≤ S16384x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S16384x128.size a
  hwx0_1 : ∀ i : grid0.Coords, EltTy.bits .f32 = 32 ∨ (Rect.block (s := S16384x128) S16384x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S16384x128.size a
  hwx0_4 : ∀ i : grid0.Coords, EltTy.bits .f32 = 32 ∨ (Rect.block (s := S16384x128) S1024x128.size (cc0_transform_4 i) (hinb0_4 i)).WholeWords (EltTy.packing .f32)
  hrank1 : 0 < grid1.rank
  k1_mult1_dvd : ∀ i : grid1.Coords, 2048 ∣ (k1_mult1 i).toNat
  k1_off1_inb : ∀ i : grid1.Coords, ∀ a, (k1_off1 i) a + S2048x128.size a ≤ S16384x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x16384.size a
  hwx1_0 : ∀ i : grid1.Coords, EltTy.bits .f32 = 32 ∨ (Rect.block (s := S16384x16384) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x128.size a ≤ S16384x128.size a
  hwx1_1 : ∀ i : grid1.Coords, EltTy.bits .f32 = 32 ∨ (Rect.block (s := S16384x128) S16384x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S16384x128.size a
  hwx1_4 : ∀ i : grid1.Coords, EltTy.bits .f32 = 32 ∨ (Rect.block (s := S16384x128) S1024x128.size (cc1_transform_4 i) (hinb1_4 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S16384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S16384x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1024x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S16384x128 : Shape := ⟨2, ![16384, 128]⟩
abbrev S16384x16384 : Shape := ⟨2, ![16384, 16384]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x128, .f32⟩
  | .hbm, ⟨3, _⟩ => ⟨S128, .f32⟩
  | .hbm, ⟨4, _⟩ => ⟨S16384x128, .f32⟩
  | .hbm, ⟨5, _⟩ => ⟨S16384x128, .f32⟩
  | .hbm, ⟨6, _⟩ => ⟨S1x128, .f32⟩
  | .hbm, ⟨7, _⟩ => ⟨S16384x128, .f32⟩
  | .hbm, ⟨8, _⟩ => ⟨S16384x128, .f32⟩
  | .hbm, ⟨9, _⟩ => ⟨S16384x128, .f32⟩
  | .hbm, ⟨10, _⟩ => ⟨S16384x128, .f32⟩
  | .hbm, ⟨11, _⟩ => ⟨S_, .f32⟩
  | .hbm, ⟨12, _⟩ => ⟨S16384x128, .f32⟩
  | .hbm, ⟨13, _⟩ => ⟨S16384x128, .f32⟩
  | .hbm, ⟨14, _⟩ => ⟨S_, .f32⟩
  | .hbm, ⟨15, _⟩ => ⟨S16384x128, .f32⟩
  | .hbm, ⟨16, _⟩ => ⟨S16384x128, .f32⟩
  | .hbm, ⟨17, _⟩ => ⟨S16384x128, .f32⟩
  | .hbm, ⟨18, _⟩ => ⟨S16384x128, .f32⟩
  | .hbm, ⟨19, _⟩ => ⟨S16384x128, .f32⟩
  | .hbm, ⟨20, _⟩ => ⟨S1x128, .f32⟩
  | .hbm, ⟨21, _⟩ => ⟨S16384x128, .f32⟩
  | .hbm, ⟨22, _⟩ => ⟨S16384x128, .f32⟩
  | .hbm, ⟨23, _⟩ => ⟨S16384x128, .f32⟩
  | .hbm, ⟨24, _⟩ => ⟨S16384x128, .f32⟩
  | .hbm, ⟨25, _⟩ => ⟨S_, .f32⟩
  | .hbm, ⟨26, _⟩ => ⟨S16384x128, .f32⟩
  | .hbm, ⟨27, _⟩ => ⟨S16384x128, .f32⟩
  | .hbm, ⟨28, _⟩ => ⟨S_, .f32⟩
  | .hbm, ⟨29, _⟩ => ⟨S16384x128, .f32⟩
  | .hbm, ⟨30, _⟩ => ⟨S16384x128, .f32⟩
  | .hbm, ⟨31, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_v0 : Ref sig .tc := ⟨.hbm, 23, rfl⟩
abbrev main_call1_v1 : Ref sig .tc := ⟨.hbm, 24, rfl⟩
abbrev main_call1_cst : Ref sig .tc := ⟨.hbm, 25, rfl⟩
abbrev main_call1_v2 : Ref sig .tc := ⟨.hbm, 26, rfl⟩
abbrev main_call1_v3 : Ref sig .tc := ⟨.hbm, 27, rfl⟩
abbrev main_call1_cst_0 : Ref sig .tc := ⟨.hbm, 28, rfl⟩
abbrev main_call1_v4 : Ref sig .tc := ⟨.hbm, 29, rfl⟩
abbrev main_call1_v5 : Ref sig .tc := ⟨.hbm, 30, rfl⟩
abbrev main_v11 : Ref sig .tc := ⟨.hbm, 31, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  dot_S16384x16384_S16384x128_S16384x128_1_0_0_1_n_n_wf : DotDims.WF S16384x16384 S16384x128 S16384x128 [1] [0] [0] [1] [] []
  dot_S16384x128_S128x128_S16384x128_1_0_0_1_n_n_wf : DotDims.WF S16384x128 S128x128 S16384x128 [1] [0] [0] [1] [] []

variable [Facts₀]

def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

class Facts : Prop extends Facts₀ where

variable [Facts]
-- ==== Proof.KB.R0Base.lean ====
import proofs.«178023_j43181601194858_1_alg».proof.Proof.Gen.Kernel.Launch
import proofs.«178023_j43181601194858_1_alg».proof.Proof.Gen.Kernel.Skeleton
import proofs.«178023_j43181601194858_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hop

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Hop 0: what the runs of its three control cases share

A grid point is a pair (row block, column block); the column block is the point's number modulo 8. The body zeroes the
accumulator at column block 0, adds one block product at every point, and at column block 7 stores the finished rows. -/

/-- Window `w`'s block at point `t`, read off its array as the hop finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, in closed form over the grid -/

/-- "This is column block 0": the accumulator is zeroed first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is column block 7": the finished rows are stored. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from column block 7 the output window is idle and not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The memrefs the body is called with -/

abbrev VO0_4 : View sig .tc .vmem S1024x128 .f32 := (Memref.whole cc0_stg4_0 : Memref sig .tc .vmem S1024x128 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16384x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .f32 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0 : Memref sig .tc .vmem S1024x128 .f32 := Memref.whole cc0_scratch0
abbrev VS0 : View sig .tc .vmem S1024x128 .f32 := scM0.view

/-- The scoped buffers of the core other than this hop's staging buffers and accumulator, each at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The scoped rest with the accumulator first. -/
theorem scopedRest0_acc (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f)) :=
  Pipeline.scopedRest_eq_of_list spec0 c [cc0_scratch0, cc1_stg0_0, cc1_stg0_1, cc1_stg1_0, cc1_stg2_0, cc1_stg3_0, cc1_stg4_0, cc1_stg4_1, cc1_scratch0] (by decide) (by decide)

/-- The class invariant with the accumulator owned as a memref at some contents. -/
theorem PhiA0_eq (c : Dev nD) :
    (Pipeline.ΦA spec0 c : sProp 𝕄)
      = iprop(iprop((∃ d, owns (c : Thread nD τ) scM0 fullShare d) ∗ Rest0 c) ∗ (∃ r, prngReg c r)) := by
  unfold Pipeline.ΦA Rest0; rw [scopedRest0_acc]; simp only [scM0, owns_whole]; try rfl

end Cert.Kernel.Hop

end
-- ==== Proof.KB.R0RunA.lean ====
import proofs.«178023_j43181601194858_1_alg».proof.Proof.KB.R0Base

set_option maxRecDepth 16384

noncomputable section

namespace Cert.Kernel.Hop

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- COLUMN BLOCK 0 (the first condition holds, the second does not). On whole memrefs — the inputs at their contents, the
    output at contents handed back untouched, the accumulator at anything — the body runs to the continuation with the
    inputs and the output as they were and the accumulator with the pieces `LS0` written: the zero block, then the
    zero block plus this point's block product. The pieces are the stores the body makes, the last first. -/
noncomputable def kernelRun0_A (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : cond0_0 i) (hc1 : ¬cond0_1 i)
    (x0 : Vec F S1024x2048 .f32) (x1 : Vec F S16384x128 .f32) (x2 : Vec F S128x128 .f32) (x3 : Vec F S128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__hop_kernel i arg2 harg2 arg3 harg3 arg4 harg4 arg5 harg5 arg6 harg6 arg7 harg7) K } := by
  refine ⟨[], ?_, fun xi4 E K => ?run⟩
  case run =>
    simp only [cc0__hop_kernel_eq_skeleton]; unfold cc0__hop_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hop

end
-- ==== Proof.KB.R0RunB.lean ====
import proofs.«178023_j43181601194858_1_alg».proof.Proof.KB.R0Base

set_option maxRecDepth 16384

noncomputable section

namespace Cert.Kernel.Hop

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- COLUMN BLOCKS 1 TO 6 (neither condition holds). The accumulator enters at what the point before left (`xs0`) and
    leaves with one piece written: `xs0` plus this point's block product. The output is handed back untouched. -/
noncomputable def kernelRun0_B (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : ¬cond0_1 i)
    (x0 : Vec F S1024x2048 .f32) (x1 : Vec F S16384x128 .f32) (x2 : Vec F S128x128 .f32) (x3 : Vec F S128 .f32) (xs0 : Vec F S1024x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__hop_kernel i arg2 harg2 arg3 harg3 arg4 harg4 arg5 harg5 arg6 harg6 arg7 harg7) K } := by
  refine ⟨[], ?_, fun xi4 E K => ?run⟩
  case run =>
    simp only [cc0__hop_kernel_eq_skeleton]; unfold cc0__hop_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hop

end
-- ==== Proof.KB.R0RunC.lean ====
import proofs.«178023_j43181601194858_1_alg».proof.Proof.KB.R0Base

set_option maxRecDepth 16384

noncomputable section

namespace Cert.Kernel.Hop

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- COLUMN BLOCK 7 (the second condition holds, the first does not). The accumulator enters at `xs0` and leaves with
    `xs0` plus this point's block product written; the output, entered at anything, leaves with one piece written: the
    finished rows (the accumulator times the weights, plus the bias, times its logistic). -/
noncomputable def kernelRun0_C (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : cond0_1 i)
    (x0 : Vec F S1024x2048 .f32) (x1 : Vec F S16384x128 .f32) (x2 : Vec F S128x128 .f32) (x3 : Vec F S128 .f32) (xs0 : Vec F S1024x128 .f32) :
    Σ' (L4 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__hop_kernel i arg2 harg2 arg3 harg3 arg4 harg4 arg5 harg5 arg6 harg6 arg7 harg7) K } := by
  refine ⟨?_, ?_, fun E K => ?run⟩
  case run =>
    simp only [cc0__hop_kernel_eq_skeleton]; unfold cc0__hop_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hop

end
-- ==== Proof.KB.R0Frame.lean ====
import proofs.«178023_j43181601194858_1_alg».proof.Proof.KB.R0RunA
import proofs.«178023_j43181601194858_1_alg».proof.Proof.KB.R0RunB
import proofs.«178023_j43181601194858_1_alg».proof.Proof.KB.R0RunC

set_option maxRecDepth 16384

noncomputable section

namespace Cert.Kernel.Hop

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output's staging buffer: its pieces read back (none: a placeholder nothing consults, the window being idle there). -/
def out0_A (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : cond0_0 i) (hc1 : ¬cond0_1 i)
    (x0 : Vec F S1024x2048 .f32) (x1 : Vec F S16384x128 .f32) (x2 : Vec F S128x128 .f32) (x3 : Vec F S128 .f32) : Vec F S1024x128 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- Case A's pieces for the accumulator cover it. -/
theorem scover0_A (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : cond0_0 i) (hc1 : ¬cond0_1 i)
    (x0 : Vec F S1024x2048 .f32) (x1 : Vec F S16384x128 .f32) (x2 : Vec F S128x128 .f32) (x3 : Vec F S128 .f32) (y : S1024x128.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S1024x128.size (by sl_kernel_rfl) y

/-- What case A leaves in the accumulator: its pieces read back. -/
def sout0_A (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : cond0_0 i) (hc1 : ¬cond0_1 i)
    (x0 : Vec F S1024x2048 .f32) (x1 : Vec F S16384x128 .f32) (x2 : Vec F S128x128 .f32) (x3 : Vec F S128 .f32) : Vec F S1024x128 .f32 :=
  VS0.read (Elt F) (VS0.writes (Elt F) VS0.junk (kernelRun0_A c i arg2 harg2 arg3 harg3 arg4 harg4 arg5 harg5 arg6 harg6 arg7 harg7 hc0 hc1 x0 x1 x2 x3).2.1)

/-- What case B leaves in the output's staging buffer: its pieces read back (none: a placeholder nothing consults, the window being idle there). -/
def out0_B (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : ¬cond0_1 i)
    (x0 : Vec F S1024x2048 .f32) (x1 : Vec F S16384x128 .f32) (x2 : Vec F S128x128 .f32) (x3 : Vec F S128 .f32) (xs0 : Vec F S1024x128 .f32) : Vec F S1024x128 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- Case B's pieces for the accumulator cover it. -/
theorem scover0_B (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : ¬cond0_1 i)
    (x0 : Vec F S1024x2048 .f32) (x1 : Vec F S16384x128 .f32) (x2 : Vec F S128x128 .f32) (x3 : Vec F S128 .f32) (xs0 : Vec F S1024x128 .f32) (y : S1024x128.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S1024x128.size (by sl_kernel_rfl) y

/-- What case B leaves in the accumulator: its pieces read back. -/
def sout0_B (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : ¬cond0_1 i)
    (x0 : Vec F S1024x2048 .f32) (x1 : Vec F S16384x128 .f32) (x2 : Vec F S128x128 .f32) (x3 : Vec F S128 .f32) (xs0 : Vec F S1024x128 .f32) : Vec F S1024x128 .f32 :=
  VS0.read (Elt F) (VS0.writes (Elt F) VS0.junk (kernelRun0_B c i arg2 harg2 arg3 harg3 arg4 harg4 arg5 harg5 arg6 harg6 arg7 harg7 hc0 hc1 x0 x1 x2 x3 xs0).2.1)

/-- What case C leaves in the output's staging buffer: its pieces read back. -/
def out0_C (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : cond0_1 i)
    (x0 : Vec F S1024x2048 .f32) (x1 : Vec F S16384x128 .f32) (x2 : Vec F S128x128 .f32) (x3 : Vec F S128 .f32) (xs0 : Vec F S1024x128 .f32) : Vec F S1024x128 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- Case C's pieces for the accumulator cover it. -/
theorem scover0_C (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : cond0_1 i)
    (x0 : Vec F S1024x2048 .f32) (x1 : Vec F S16384x128 .f32) (x2 : Vec F S128x128 .f32) (x3 : Vec F S128 .f32) (xs0 : Vec F S1024x128 .f32) (y : S1024x128.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1024x128.size (by sl_kernel_rfl) y

/-- What case C leaves in the accumulator: its pieces read back. -/
def sout0_C (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : cond0_1 i)
    (x0 : Vec F S1024x2048 .f32) (x1 : Vec F S16384x128 .f32) (x2 : Vec F S128x128 .f32) (x3 : Vec F S128 .f32) (xs0 : Vec F S1024x128 .f32) : Vec F S1024x128 .f32 :=
  VS0.read (Elt F) (VS0.writes (Elt F) VS0.junk (kernelRun0_C c i arg2 harg2 arg3 harg3 arg4 harg4 arg5 harg5 arg6 harg6 arg7 harg7 hc0 hc1 x0 x1 x2 x3 xs0).2.1)

/-- Case C's one store into the output covers its block. -/
theorem cover0_C (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : cond0_1 i)
    (x0 : Vec F S1024x2048 .f32) (x1 : Vec F S16384x128 .f32) (x2 : Vec F S128x128 .f32) (x3 : Vec F S128 .f32) (xs0 : Vec F S1024x128 .f32) (y : S1024x128.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1024x128.size (by sl_kernel_rfl) y

/-! ## What the output's buffer and the accumulator hold after each point -/

/-- THE ACCUMULATION, point by point (first the output's staging buffer, then the accumulator): the case the closed
    forms select at `n`, run at the point's memrefs and input blocks, the accumulator entering at what point `n - 1` left. -/
def outsAt0 (c : Dev nD) : (n : ℕ) → n < cfg0.N → Vec F S1024x128 .f32 × Vec F S1024x128 .f32
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 8 = 0 then
      if h1 : (n + 1) % 8 = 7 then
        False.elim (by omega)
      else
        (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 8 = 7 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (out0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t), sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The hop's invariant before position `n`: before the first point every scoped buffer at anything; afterwards the
    accumulator at what the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ Rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ Rest0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ Rest0 c) ∗ (∃ r, prngReg c r)) := by
  cases n with
  | zero => exact absurd rfl hz
  | succ n => rfl

/-! ## The proof data -/

/-- The hop's proof data on core `c`: the arrays as the hop finds them; after the body at point `t` each input's
    buffer at its block and the output's at `outsAt0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
/-- The body at any point: the inputs' memrefs hold their blocks; the closed forms say which case the point is in; the
    invariant hands the body the accumulator at what the point before left (at anything at the first point) and takes it
    back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  by_cases h0 : t.val % 8 = 0
  · by_cases h1 : t.val % 8 = 7
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t (fun h => h1 ((hcond0_1 t).mp h))) (noFlush0_4 t (fun h => h1 ((hcond0_1 t).mp h)))]
      rw [outsAt0_A V c t h0 h1]
      unfold sout0_A; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c _ _ _ _ _ _ _ _ _ _ _ _ _ _ _ _ _ _ _ )
            iexact HR
          iexact Hg
        isplitl [Ho]; · iexact Ho
        isplitl [H0]; · iexact H0
        isplitl [H1]; · iexact H1
        isplitl [H2]; · iexact H2
        isplitl [H3]; · iexact H3
        iexists _; iexact H4
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c _ _ _ _ _ _ _ _ _ _ _ _ _ _ _ _ _ _ _ )
            iexact HR
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun hz => h0 (by rw [hz])
    by_cases h1 : t.val % 8 = 7
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C sout0_C; (try dsimp only)
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C c _ _ _ _ _ _ _ _ _ _ _ _ _ _ _ _ _ _ _ _ )
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C c _ _ _ _ _ _ _ _ _ _ _ _ _ _ _ _ _ _ _ _ )
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B; (try dsimp only)
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B c _ _ _ _ _ _ _ _ _ _ _ _ _ _ _ _ _ _ _ _ )
          iexact HR
        iexact Hg
      isplitl [Ho]; · iexact Ho
      isplitl [H0]; · iexact H0
      isplitl [H1]; · iexact H1
      isplitl [H2]; · iexact H2
      isplitl [H3]; · iexact H3
      iexists _; iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

/-- Before the first point the invariant is the class's. -/
theorem Phi_in0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the accumulator's contents are forgotten. -/
theorem Phi_out0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS0, HR⟩, Hg⟩
  isplitl [HS0 HR]
  · isplitl [HS0]
    · iexists _; iexact HS0
    iexact HR
  iexact Hg

end Cert.Kernel.Hop

end
-- ==== Proof.KB.R1Base.lean ====
import proofs.«178023_j43181601194858_1_alg».proof.Proof.Gen.Kernel.Launch
import proofs.«178023_j43181601194858_1_alg».proof.Proof.Gen.Kernel.Skeleton
import proofs.«178023_j43181601194858_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hop

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Hop 1: what the runs of its three control cases share

A grid point is a pair (row block, column block); the column block is the point's number modulo 8. The body zeroes the
accumulator at column block 0, adds one block product at every point, and at column block 7 stores the finished rows. -/

/-- Window `w`'s block at point `t`, read off its array as the hop finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, in closed form over the grid -/

/-- "This is column block 0": the accumulator is zeroed first. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is column block 7": the finished rows are stored. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from column block 7 the output window is idle and not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The memrefs the body is called with -/

abbrev VO1_4 : View sig .tc .vmem S1024x128 .f32 := (Memref.whole cc1_stg4_0 : Memref sig .tc .vmem S1024x128 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x128 .f32 := win1_4.stage (cfg1.slots t 4)
abbrev hs1_4 (t : Fin cfg1.N) : (ms1_4 t).IsWhole := hstage1_4 ((cfg1.slots t 4).cast nbuf1_4)
/-- The accumulator: a whole scoped buffer of the kernel's own. -/
abbrev scM1 : Memref sig .tc .vmem S1024x128 .f32 := Memref.whole cc1_scratch0
abbrev VS1 : View sig .tc .vmem S1024x128 .f32 := scM1.view

/-- The scoped buffers of the core other than this hop's staging buffers and accumulator, each at some contents. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- The scoped rest with the accumulator first. -/
theorem scopedRest1_acc (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f)) :=
  Pipeline.scopedRest_eq_of_list spec1 c [cc1_scratch0, cc0_stg0_0, cc0_stg0_1, cc0_stg1_0, cc0_stg2_0, cc0_stg3_0, cc0_stg4_0, cc0_stg4_1, cc0_scratch0] (by decide) (by decide)

/-- The class invariant with the accumulator owned as a memref at some contents. -/
theorem PhiA1_eq (c : Dev nD) :
    (Pipeline.ΦA spec1 c : sProp 𝕄)
      = iprop(iprop((∃ d, owns (c : Thread nD τ) scM1 fullShare d) ∗ Rest1 c) ∗ (∃ r, prngReg c r)) := by
  unfold Pipeline.ΦA Rest1; rw [scopedRest1_acc]; simp only [scM1, owns_whole]; try rfl

end Cert.Kernel.Hop

end
-- ==== Proof.KB.R1RunA.lean ====
import proofs.«178023_j43181601194858_1_alg».proof.Proof.KB.R1Base

set_option maxRecDepth 16384

noncomputable section

namespace Cert.Kernel.Hop

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- COLUMN BLOCK 0 (the first condition holds, the second does not). On whole memrefs — the inputs at their contents, the
    output at contents handed back untouched, the accumulator at anything — the body runs to the continuation with the
    inputs and the output as they were and the accumulator with the pieces `LS0` written: the zero block, then the
    zero block plus this point's block product. The pieces are the stores the body makes, the last first. -/
noncomputable def kernelRun1_A (c : Dev nD) (i : grid1.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x2048 .f32) (x1 : Vec F S16384x128 .f32) (x2 : Vec F S128x128 .f32) (x3 : Vec F S128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__hop_kernel i arg2 harg2 arg3 harg3 arg4 harg4 arg5 harg5 arg6 harg6 arg7 harg7) K } := by
  refine ⟨[], ?_, fun xi4 E K => ?run⟩
  case run =>
    simp only [cc1__hop_kernel_eq_skeleton]; unfold cc1__hop_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hop

end
-- ==== Proof.KB.R1RunB.lean ====
import proofs.«178023_j43181601194858_1_alg».proof.Proof.KB.R1Base

set_option maxRecDepth 16384

noncomputable section

namespace Cert.Kernel.Hop

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- COLUMN BLOCKS 1 TO 6 (neither condition holds). The accumulator enters at what the point before left (`xs0`) and
    leaves with one piece written: `xs0` plus this point's block product. The output is handed back untouched. -/
noncomputable def kernelRun1_B (c : Dev nD) (i : grid1.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x2048 .f32) (x1 : Vec F S16384x128 .f32) (x2 : Vec F S128x128 .f32) (x3 : Vec F S128 .f32) (xs0 : Vec F S1024x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__hop_kernel i arg2 harg2 arg3 harg3 arg4 harg4 arg5 harg5 arg6 harg6 arg7 harg7) K } := by
  refine ⟨[], ?_, fun xi4 E K => ?run⟩
  case run =>
    simp only [cc1__hop_kernel_eq_skeleton]; unfold cc1__hop_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hop

end
-- ==== Proof.KB.R1RunC.lean ====
import proofs.«178023_j43181601194858_1_alg».proof.Proof.KB.R1Base

set_option maxRecDepth 16384

noncomputable section

namespace Cert.Kernel.Hop

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- COLUMN BLOCK 7 (the second condition holds, the first does not). The accumulator enters at `xs0` and leaves with
    `xs0` plus this point's block product written; the output, entered at anything, leaves with one piece written: the
    finished rows (the accumulator times the weights, plus the bias, times its logistic). -/
noncomputable def kernelRun1_C (c : Dev nD) (i : grid1.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x2048 .f32) (x1 : Vec F S16384x128 .f32) (x2 : Vec F S128x128 .f32) (x3 : Vec F S128 .f32) (xs0 : Vec F S1024x128 .f32) :
    Σ' (L4 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__hop_kernel i arg2 harg2 arg3 harg3 arg4 harg4 arg5 harg5 arg6 harg6 arg7 harg7) K } := by
  refine ⟨?_, ?_, fun E K => ?run⟩
  case run =>
    simp only [cc1__hop_kernel_eq_skeleton]; unfold cc1__hop_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hop

end
-- ==== Proof.KB.R1Frame.lean ====
import proofs.«178023_j43181601194858_1_alg».proof.Proof.KB.R1RunA
import proofs.«178023_j43181601194858_1_alg».proof.Proof.KB.R1RunB
import proofs.«178023_j43181601194858_1_alg».proof.Proof.KB.R1RunC

set_option maxRecDepth 16384

noncomputable section

namespace Cert.Kernel.Hop

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output's staging buffer: its pieces read back (none: a placeholder nothing consults, the window being idle there). -/
def out1_A (c : Dev nD) (i : grid1.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x2048 .f32) (x1 : Vec F S16384x128 .f32) (x2 : Vec F S128x128 .f32) (x3 : Vec F S128 .f32) : Vec F S1024x128 .f32 :=
  VO1_4.read (Elt F) (VO1_4.writes (Elt F) VO1_4.junk (kernelRun1_A c i arg2 harg2 arg3 harg3 arg4 harg4 arg5 harg5 arg6 harg6 arg7 harg7 hc0 hc1 x0 x1 x2 x3).1)

/-- Case A's pieces for the accumulator cover it. -/
theorem scover1_A (c : Dev nD) (i : grid1.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x2048 .f32) (x1 : Vec F S16384x128 .f32) (x2 : Vec F S128x128 .f32) (x3 : Vec F S128 .f32) (y : S1024x128.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S1024x128.size (by sl_kernel_rfl) y

/-- What case A leaves in the accumulator: its pieces read back. -/
def sout1_A (c : Dev nD) (i : grid1.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x2048 .f32) (x1 : Vec F S16384x128 .f32) (x2 : Vec F S128x128 .f32) (x3 : Vec F S128 .f32) : Vec F S1024x128 .f32 :=
  VS1.read (Elt F) (VS1.writes (Elt F) VS1.junk (kernelRun1_A c i arg2 harg2 arg3 harg3 arg4 harg4 arg5 harg5 arg6 harg6 arg7 harg7 hc0 hc1 x0 x1 x2 x3).2.1)

/-- What case B leaves in the output's staging buffer: its pieces read back (none: a placeholder nothing consults, the window being idle there). -/
def out1_B (c : Dev nD) (i : grid1.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x2048 .f32) (x1 : Vec F S16384x128 .f32) (x2 : Vec F S128x128 .f32) (x3 : Vec F S128 .f32) (xs0 : Vec F S1024x128 .f32) : Vec F S1024x128 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xs0).1)

/-- Case B's pieces for the accumulator cover it. -/
theorem scover1_B (c : Dev nD) (i : grid1.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x2048 .f32) (x1 : Vec F S16384x128 .f32) (x2 : Vec F S128x128 .f32) (x3 : Vec F S128 .f32) (xs0 : Vec F S1024x128 .f32) (y : S1024x128.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S1024x128.size (by sl_kernel_rfl) y

/-- What case B leaves in the accumulator: its pieces read back. -/
def sout1_B (c : Dev nD) (i : grid1.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x2048 .f32) (x1 : Vec F S16384x128 .f32) (x2 : Vec F S128x128 .f32) (x3 : Vec F S128 .f32) (xs0 : Vec F S1024x128 .f32) : Vec F S1024x128 .f32 :=
  VS1.read (Elt F) (VS1.writes (Elt F) VS1.junk (kernelRun1_B c i arg2 harg2 arg3 harg3 arg4 harg4 arg5 harg5 arg6 harg6 arg7 harg7 hc0 hc1 x0 x1 x2 x3 xs0).2.1)

/-- What case C leaves in the output's staging buffer: its pieces read back. -/
def out1_C (c : Dev nD) (i : grid1.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x2048 .f32) (x1 : Vec F S16384x128 .f32) (x2 : Vec F S128x128 .f32) (x3 : Vec F S128 .f32) (xs0 : Vec F S1024x128 .f32) : Vec F S1024x128 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)

/-- Case C's pieces for the accumulator cover it. -/
theorem scover1_C (c : Dev nD) (i : grid1.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x2048 .f32) (x1 : Vec F S16384x128 .f32) (x2 : Vec F S128x128 .f32) (x3 : Vec F S128 .f32) (xs0 : Vec F S1024x128 .f32) (y : S1024x128.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S1024x128.size (by sl_kernel_rfl) y

/-- What case C leaves in the accumulator: its pieces read back. -/
def sout1_C (c : Dev nD) (i : grid1.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x2048 .f32) (x1 : Vec F S16384x128 .f32) (x2 : Vec F S128x128 .f32) (x3 : Vec F S128 .f32) (xs0 : Vec F S1024x128 .f32) : Vec F S1024x128 .f32 :=
  VS1.read (Elt F) (VS1.writes (Elt F) VS1.junk (kernelRun1_C c i arg2 harg2 arg3 harg3 arg4 harg4 arg5 harg5 arg6 harg6 arg7 harg7 hc0 hc1 x0 x1 x2 x3 xs0).2.1)

/-- Case C's one store into the output covers its block. -/
theorem cover1_C (c : Dev nD) (i : grid1.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x2048 .f32) (x1 : Vec F S16384x128 .f32) (x2 : Vec F S128x128 .f32) (x3 : Vec F S128 .f32) (xs0 : Vec F S1024x128 .f32) (y : S1024x128.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S1024x128.size (by sl_kernel_rfl) y

/-! ## What the output's buffer and the accumulator hold after each point -/

/-- THE ACCUMULATION, point by point (first the output's staging buffer, then the accumulator): the case the closed
    forms select at `n`, run at the point's memrefs and input blocks, the accumulator entering at what point `n - 1` left. -/
def outsAt1 (c : Dev nD) : (n : ℕ) → n < cfg1.N → Vec F S1024x128 .f32 × Vec F S1024x128 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      if h1 : (n + 1) % 8 = 7 then
        False.elim (by omega)
      else
        (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 8 = 7 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t), sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The hop's invariant before position `n`: before the first point every scoped buffer at anything; afterwards the
    accumulator at what the point before left, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ Rest1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Rest1 c) ∗ (∃ r, prngReg c r)) := by
  cases n with
  | zero => exact absurd rfl hz
  | succ n => rfl

/-! ## The proof data -/

/-- The hop's proof data on core `c`: the arrays as the hop finds them; after the body at point `t` each input's
    buffer at its block and the output's at `outsAt1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the inputs' memrefs hold their blocks; the closed forms say which case the point is in; the
    invariant hands the body the accumulator at what the point before left (at anything at the first point) and takes it
    back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A c _ _ _ _ _ _ _ _ _ _ _ _ _ _ _ _ _ _ _ )
            iexact HR
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A c _ _ _ _ _ _ _ _ _ _ _ _ _ _ _ _ _ _ _ )
            iexact HR
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun hz => h0 (by rw [hz])
    by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C sout1_C; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C c _ _ _ _ _ _ _ _ _ _ _ _ _ _ _ _ _ _ _ _ )
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C c _ _ _ _ _ _ _ _ _ _ _ _ _ _ _ _ _ _ _ _ )
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B c _ _ _ _ _ _ _ _ _ _ _ _ _ _ _ _ _ _ _ _ )
          iexact HR
        iexact Hg
      isplitl [Ho]; · iexact Ho
      isplitl [H0]; · iexact H0
      isplitl [H1]; · iexact H1
      isplitl [H2]; · iexact H2
      isplitl [H3]; · iexact H3
      iexists _; iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

/-- Before the first point the invariant is the class's. -/
theorem Phi_in1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the accumulator's contents are forgotten. -/
theorem Phi_out1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨HS0, HR⟩, Hg⟩
  isplitl [HS0 HR]
  · isplitl [HS0]
    · iexists _; iexact HS0
    iexact HR
  iexact Hg

end Cert.Kernel.Hop

end
-- ==== Proof.KB.Regions.lean ====
import proofs.«178023_j43181601194858_1_alg».proof.Proof.KB.R0Frame
import proofs.«178023_j43181601194858_1_alg».proof.Proof.KB.R1Frame

set_option maxRecDepth 16384

noncomputable section

namespace Cert.Kernel.Hop

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The two hops in sequence: the buffers' contents at each boundary, a fold from the launch memory -/

/-- Core `c`'s buffers at launch (hop 0's entry). -/
abbrev W0 : Dev nD → Valuation τ sig (Elt F) := fun c b => m ((c : Dev nD), b)
abbrev V0 : (c : Dev nD) → (b : Ref sig .tc) → Buf (Elt F) ((c : Thread nD τ).loc b) := fun c b => W0 m c b

/-- At hop 0's exit: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- At hop 1's exit: its arrays at what the pipeline leaves, every other buffer as entered. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- No hop writes `main_arg0`: it reaches the end as launched. -/
theorem W2_main_arg0 (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := (W1_arr m c 1).trans (((dat0 (V0 m) c).arrAt_in 1 rfl _).trans (A_eq0 (V0 m) c 1))
    _ = m ((c : Thread nD τ).loc main_arg0) := rfl

/-- No hop writes `main_arg1`: it reaches the end as launched. -/
theorem W2_main_arg1 (c : Dev nD) : W2 m c (Proc.devRef .tc main_arg1) = m ((c : Thread nD τ).loc main_arg1) :=
  calc W2 m c (Proc.devRef .tc main_arg1)
    _ = W1 m c (Proc.devRef .tc main_arg1) := (W2_arr m c 0).trans (((dat1 (V1 m) c).arrAt_in 0 rfl _).trans (A_eq1 (V1 m) c 0))
    _ = W0 m c (Proc.devRef .tc main_arg1) := (W1_arr m c 0).trans (((dat0 (V0 m) c).arrAt_in 0 rfl _).trans (A_eq0 (V0 m) c 0))
    _ = m ((c : Thread nD τ).loc main_arg1) := rfl

/-- No hop writes `main_arg2`: it reaches the end as launched. -/
theorem W2_main_arg2 (c : Dev nD) : W2 m c (Proc.devRef .tc main_arg2) = m ((c : Thread nD τ).loc main_arg2) :=
  calc W2 m c (Proc.devRef .tc main_arg2)
    _ = W1 m c (Proc.devRef .tc main_arg2) := (W2_arr m c 2).trans (((dat1 (V1 m) c).arrAt_in 2 rfl _).trans (A_eq1 (V1 m) c 2))
    _ = W0 m c (Proc.devRef .tc main_arg2) := (W1_arr m c 2).trans (((dat0 (V0 m) c).arrAt_in 2 rfl _).trans (A_eq0 (V0 m) c 2))
    _ = m ((c : Thread nD τ).loc main_arg2) := rfl

/-- No hop writes `main_arg3`: it reaches the end as launched. -/
theorem W2_main_arg3 (c : Dev nD) : W2 m c (Proc.devRef .tc main_arg3) = m ((c : Thread nD τ).loc main_arg3) :=
  calc W2 m c (Proc.devRef .tc main_arg3)
    _ = W1 m c (Proc.devRef .tc main_arg3) := (W2_arr m c 3).trans (((dat1 (V1 m) c).arrAt_in 3 rfl _).trans (A_eq1 (V1 m) c 3))
    _ = W0 m c (Proc.devRef .tc main_arg3) := (W1_arr m c 3).trans (((dat0 (V0 m) c).arrAt_in 3 rfl _).trans (A_eq0 (V0 m) c 3))
    _ = m ((c : Thread nD τ).loc main_arg3) := rfl

/-- The final result is what hop 1's write-backs leave. -/
theorem W2_main_v1 (c : Dev nD) : W2 m c (Proc.devRef .tc main_v1) = (dat1 (V1 m) c).arrAt 4 cfg1.N := W2_arr m c 4
/-- Hop 1 reads, as its second operand, what hop 0's write-backs leave. -/
theorem V1_main_v0 (c : Dev nD) : V1 m c main_v0 = (dat0 (V0 m) c).arrAt 4 cfg0.N := W1_arr m c 4
/-- and the other operands as launched. -/
theorem V1_main_arg1 (c : Dev nD) : V1 m c main_arg1 = m ((c : Thread nD τ).loc main_arg1) :=
  (W1_arr m c 0).trans (((dat0 (V0 m) c).arrAt_in 0 rfl _).trans (A_eq0 (V0 m) c 0))
theorem V1_main_arg2 (c : Dev nD) : V1 m c main_arg2 = m ((c : Thread nD τ).loc main_arg2) :=
  (W1_arr m c 2).trans (((dat0 (V0 m) c).arrAt_in 2 rfl _).trans (A_eq0 (V0 m) c 2))
theorem V1_main_arg3 (c : Dev nD) : V1 m c main_arg3 = m ((c : Thread nD τ).loc main_arg3) :=
  (W1_arr m c 3).trans (((dat0 (V0 m) c).arrAt_in 3 rfl _).trans (A_eq0 (V0 m) c 3))

/-! ## The proof data family and the thread state -/

abbrev adm : (p : Fin 2) → (pcfgs (F := F) p).Adm := fun p => (cfgs p).toPCfg_adm
/-- Both hops' proof data, each at its entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The hops as segments -/

set_option backward.isDefEq.respectTransparency.types false in
/-- HOP 0 over the thread state: entered from every unscoped buffer at `W0`, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    refine (show (pdats m 0 c).Φ (Fin.last _) ⊢ Pipeline.ΦA spec0 c from Phi_out0 (V0 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- HOP 1 over the thread state: entered from every unscoped buffer at `W1`, left at `W2`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    refine (show (pdats m 1 c).Φ (Fin.last _) ⊢ Pipeline.ΦA spec1 c from Phi_out1 (V1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- THE RUN of both hops: from any memory with zero counters every weakly fair execution of @main terminates, nothing
    faulting, and every final state holds every unscoped buffer at the last boundary's contents `W2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c)⟩) (run_all m ρ)

end Cert.Kernel.Hop

end
-- ==== Proof.KI.R0Base.lean ====
import proofs.«178023_j43181601194858_1_alg».proof.Proof.Gen.KernelIdeal.Launch
import proofs.«178023_j43181601194858_1_alg».proof.Proof.Gen.KernelIdeal.Skeleton
import proofs.«178023_j43181601194858_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hop

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Hop 0: what the runs of its three control cases share

A grid point is a pair (row block, column block); the column block is the point's number modulo 8. The body zeroes the
accumulator at column block 0, adds one block product at every point, and at column block 7 stores the finished rows. -/

/-- Window `w`'s block at point `t`, read off its array as the hop finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, in closed form over the grid -/

/-- "This is column block 0": the accumulator is zeroed first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is column block 7": the finished rows are stored. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from column block 7 the output window is idle and not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The memrefs the body is called with -/

abbrev VO0_4 : View sig .tc .vmem S1024x128 .f32 := (Memref.whole cc0_stg4_0 : Memref sig .tc .vmem S1024x128 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16384x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .f32 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0 : Memref sig .tc .vmem S1024x128 .f32 := Memref.whole cc0_scratch0
abbrev VS0 : View sig .tc .vmem S1024x128 .f32 := scM0.view

/-- The scoped buffers of the core other than this hop's staging buffers and accumulator, each at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The scoped rest with the accumulator first. -/
theorem scopedRest0_acc (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f)) :=
  Pipeline.scopedRest_eq_of_list spec0 c [cc0_scratch0, cc1_stg0_0, cc1_stg0_1, cc1_stg1_0, cc1_stg2_0, cc1_stg3_0, cc1_stg4_0, cc1_stg4_1, cc1_scratch0] (by decide) (by decide)

/-- The class invariant with the accumulator owned as a memref at some contents. -/
theorem PhiA0_eq (c : Dev nD) :
    (Pipeline.ΦA spec0 c : sProp 𝕄)
      = iprop(iprop((∃ d, owns (c : Thread nD τ) scM0 fullShare d) ∗ Rest0 c) ∗ (∃ r, prngReg c r)) := by
  unfold Pipeline.ΦA Rest0; rw [scopedRest0_acc]; simp only [scM0, owns_whole]; try rfl

end Cert.KernelIdeal.Hop

end
-- ==== Proof.KI.R0RunA.lean ====
import proofs.«178023_j43181601194858_1_alg».proof.Proof.KI.R0Base

set_option maxRecDepth 16384

noncomputable section

namespace Cert.KernelIdeal.Hop

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- COLUMN BLOCK 0 (the first condition holds, the second does not). On whole memrefs — the inputs at their contents, the
    output at contents handed back untouched, the accumulator at anything — the body runs to the continuation with the
    inputs and the output as they were and the accumulator with the pieces `LS0` written: the zero block, then the
    zero block plus this point's block product. The pieces are the stores the body makes, the last first. -/
noncomputable def kernelRun0_A (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : cond0_0 i) (hc1 : ¬cond0_1 i)
    (x0 : Vec F S1024x2048 .f32) (x1 : Vec F S16384x128 .f32) (x2 : Vec F S128x128 .f32) (x3 : Vec F S128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__hop_kernel i arg2 harg2 arg3 harg3 arg4 harg4 arg5 harg5 arg6 harg6 arg7 harg7) K } := by
  refine ⟨[], ?_, fun xi4 E K => ?run⟩
  case run =>
    simp only [cc0__hop_kernel_eq_skeleton]; unfold cc0__hop_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hop

end
-- ==== Proof.KI.R0RunB.lean ====
import proofs.«178023_j43181601194858_1_alg».proof.Proof.KI.R0Base

set_option maxRecDepth 16384

noncomputable section

namespace Cert.KernelIdeal.Hop

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- COLUMN BLOCKS 1 TO 6 (neither condition holds). The accumulator enters at what the point before left (`xs0`) and
    leaves with one piece written: `xs0` plus this point's block product. The output is handed back untouched. -/
noncomputable def kernelRun0_B (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : ¬cond0_1 i)
    (x0 : Vec F S1024x2048 .f32) (x1 : Vec F S16384x128 .f32) (x2 : Vec F S128x128 .f32) (x3 : Vec F S128 .f32) (xs0 : Vec F S1024x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__hop_kernel i arg2 harg2 arg3 harg3 arg4 harg4 arg5 harg5 arg6 harg6 arg7 harg7) K } := by
  refine ⟨[], ?_, fun xi4 E K => ?run⟩
  case run =>
    simp only [cc0__hop_kernel_eq_skeleton]; unfold cc0__hop_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hop

end
-- ==== Proof.KI.R0RunC.lean ====
import proofs.«178023_j43181601194858_1_alg».proof.Proof.KI.R0Base

set_option maxRecDepth 16384

noncomputable section

namespace Cert.KernelIdeal.Hop

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- COLUMN BLOCK 7 (the second condition holds, the first does not). The accumulator enters at `xs0` and leaves with
    `xs0` plus this point's block product written; the output, entered at anything, leaves with one piece written: the
    finished rows (the accumulator times the weights, plus the bias, times its logistic). -/
noncomputable def kernelRun0_C (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : cond0_1 i)
    (x0 : Vec F S1024x2048 .f32) (x1 : Vec F S16384x128 .f32) (x2 : Vec F S128x128 .f32) (x3 : Vec F S128 .f32) (xs0 : Vec F S1024x128 .f32) :
    Σ' (L4 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__hop_kernel i arg2 harg2 arg3 harg3 arg4 harg4 arg5 harg5 arg6 harg6 arg7 harg7) K } := by
  refine ⟨?_, ?_, fun E K => ?run⟩
  case run =>
    simp only [cc0__hop_kernel_eq_skeleton]; unfold cc0__hop_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hop

end
-- ==== Proof.KI.R0Frame.lean ====
import proofs.«178023_j43181601194858_1_alg».proof.Proof.KI.R0RunA
import proofs.«178023_j43181601194858_1_alg».proof.Proof.KI.R0RunB
import proofs.«178023_j43181601194858_1_alg».proof.Proof.KI.R0RunC

set_option maxRecDepth 16384

noncomputable section

namespace Cert.KernelIdeal.Hop

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output's staging buffer: its pieces read back (none: a placeholder nothing consults, the window being idle there). -/
def out0_A (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : cond0_0 i) (hc1 : ¬cond0_1 i)
    (x0 : Vec F S1024x2048 .f32) (x1 : Vec F S16384x128 .f32) (x2 : Vec F S128x128 .f32) (x3 : Vec F S128 .f32) : Vec F S1024x128 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- Case A's pieces for the accumulator cover it. -/
theorem scover0_A (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : cond0_0 i) (hc1 : ¬cond0_1 i)
    (x0 : Vec F S1024x2048 .f32) (x1 : Vec F S16384x128 .f32) (x2 : Vec F S128x128 .f32) (x3 : Vec F S128 .f32) (y : S1024x128.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S1024x128.size (by sl_kernel_rfl) y

/-- What case A leaves in the accumulator: its pieces read back. -/
def sout0_A (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : cond0_0 i) (hc1 : ¬cond0_1 i)
    (x0 : Vec F S1024x2048 .f32) (x1 : Vec F S16384x128 .f32) (x2 : Vec F S128x128 .f32) (x3 : Vec F S128 .f32) : Vec F S1024x128 .f32 :=
  VS0.read (Elt F) (VS0.writes (Elt F) VS0.junk (kernelRun0_A c i arg2 harg2 arg3 harg3 arg4 harg4 arg5 harg5 arg6 harg6 arg7 harg7 hc0 hc1 x0 x1 x2 x3).2.1)

/-- What case B leaves in the output's staging buffer: its pieces read back (none: a placeholder nothing consults, the window being idle there). -/
def out0_B (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : ¬cond0_1 i)
    (x0 : Vec F S1024x2048 .f32) (x1 : Vec F S16384x128 .f32) (x2 : Vec F S128x128 .f32) (x3 : Vec F S128 .f32) (xs0 : Vec F S1024x128 .f32) : Vec F S1024x128 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- Case B's pieces for the accumulator cover it. -/
theorem scover0_B (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : ¬cond0_1 i)
    (x0 : Vec F S1024x2048 .f32) (x1 : Vec F S16384x128 .f32) (x2 : Vec F S128x128 .f32) (x3 : Vec F S128 .f32) (xs0 : Vec F S1024x128 .f32) (y : S1024x128.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S1024x128.size (by sl_kernel_rfl) y

/-- What case B leaves in the accumulator: its pieces read back. -/
def sout0_B (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : ¬cond0_1 i)
    (x0 : Vec F S1024x2048 .f32) (x1 : Vec F S16384x128 .f32) (x2 : Vec F S128x128 .f32) (x3 : Vec F S128 .f32) (xs0 : Vec F S1024x128 .f32) : Vec F S1024x128 .f32 :=
  VS0.read (Elt F) (VS0.writes (Elt F) VS0.junk (kernelRun0_B c i arg2 harg2 arg3 harg3 arg4 harg4 arg5 harg5 arg6 harg6 arg7 harg7 hc0 hc1 x0 x1 x2 x3 xs0).2.1)

/-- What case C leaves in the output's staging buffer: its pieces read back. -/
def out0_C (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : cond0_1 i)
    (x0 : Vec F S1024x2048 .f32) (x1 : Vec F S16384x128 .f32) (x2 : Vec F S128x128 .f32) (x3 : Vec F S128 .f32) (xs0 : Vec F S1024x128 .f32) : Vec F S1024x128 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- Case C's pieces for the accumulator cover it. -/
theorem scover0_C (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : cond0_1 i)
    (x0 : Vec F S1024x2048 .f32) (x1 : Vec F S16384x128 .f32) (x2 : Vec F S128x128 .f32) (x3 : Vec F S128 .f32) (xs0 : Vec F S1024x128 .f32) (y : S1024x128.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1024x128.size (by sl_kernel_rfl) y

/-- What case C leaves in the accumulator: its pieces read back. -/
def sout0_C (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : cond0_1 i)
    (x0 : Vec F S1024x2048 .f32) (x1 : Vec F S16384x128 .f32) (x2 : Vec F S128x128 .f32) (x3 : Vec F S128 .f32) (xs0 : Vec F S1024x128 .f32) : Vec F S1024x128 .f32 :=
  VS0.read (Elt F) (VS0.writes (Elt F) VS0.junk (kernelRun0_C c i arg2 harg2 arg3 harg3 arg4 harg4 arg5 harg5 arg6 harg6 arg7 harg7 hc0 hc1 x0 x1 x2 x3 xs0).2.1)

/-- Case C's one store into the output covers its block. -/
theorem cover0_C (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : cond0_1 i)
    (x0 : Vec F S1024x2048 .f32) (x1 : Vec F S16384x128 .f32) (x2 : Vec F S128x128 .f32) (x3 : Vec F S128 .f32) (xs0 : Vec F S1024x128 .f32) (y : S1024x128.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1024x128.size (by sl_kernel_rfl) y

/-! ## What the output's buffer and the accumulator hold after each point -/

/-- THE ACCUMULATION, point by point (first the output's staging buffer, then the accumulator): the case the closed
    forms select at `n`, run at the point's memrefs and input blocks, the accumulator entering at what point `n - 1` left. -/
def outsAt0 (c : Dev nD) : (n : ℕ) → n < cfg0.N → Vec F S1024x128 .f32 × Vec F S1024x128 .f32
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 8 = 0 then
      if h1 : (n + 1) % 8 = 7 then
        False.elim (by omega)
      else
        (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 8 = 7 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (out0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t), sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The hop's invariant before position `n`: before the first point every scoped buffer at anything; afterwards the
    accumulator at what the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ Rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ Rest0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ Rest0 c) ∗ (∃ r, prngReg c r)) := by
  cases n with
  | zero => exact absurd rfl hz
  | succ n => rfl

/-! ## The proof data -/

/-- The hop's proof data on core `c`: the arrays as the hop finds them; after the body at point `t` each input's
    buffer at its block and the output's at `outsAt0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
/-- The body at any point: the inputs' memrefs hold their blocks; the closed forms say which case the point is in; the
    invariant hands the body the accumulator at what the point before left (at anything at the first point) and takes it
    back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  by_cases h0 : t.val % 8 = 0
  · by_cases h1 : t.val % 8 = 7
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t (fun h => h1 ((hcond0_1 t).mp h))) (noFlush0_4 t (fun h => h1 ((hcond0_1 t).mp h)))]
      rw [outsAt0_A V c t h0 h1]
      unfold sout0_A; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c _ _ _ _ _ _ _ _ _ _ _ _ _ _ _ _ _ _ _ )
            iexact HR
          iexact Hg
        isplitl [Ho]; · iexact Ho
        isplitl [H0]; · iexact H0
        isplitl [H1]; · iexact H1
        isplitl [H2]; · iexact H2
        isplitl [H3]; · iexact H3
        iexists _; iexact H4
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c _ _ _ _ _ _ _ _ _ _ _ _ _ _ _ _ _ _ _ )
            iexact HR
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun hz => h0 (by rw [hz])
    by_cases h1 : t.val % 8 = 7
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C sout0_C; (try dsimp only)
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C c _ _ _ _ _ _ _ _ _ _ _ _ _ _ _ _ _ _ _ _ )
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C c _ _ _ _ _ _ _ _ _ _ _ _ _ _ _ _ _ _ _ _ )
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B; (try dsimp only)
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B c _ _ _ _ _ _ _ _ _ _ _ _ _ _ _ _ _ _ _ _ )
          iexact HR
        iexact Hg
      isplitl [Ho]; · iexact Ho
      isplitl [H0]; · iexact H0
      isplitl [H1]; · iexact H1
      isplitl [H2]; · iexact H2
      isplitl [H3]; · iexact H3
      iexists _; iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

/-- Before the first point the invariant is the class's. -/
theorem Phi_in0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the accumulator's contents are forgotten. -/
theorem Phi_out0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS0, HR⟩, Hg⟩
  isplitl [HS0 HR]
  · isplitl [HS0]
    · iexists _; iexact HS0
    iexact HR
  iexact Hg

end Cert.KernelIdeal.Hop

end
-- ==== Proof.KI.R1Base.lean ====
import proofs.«178023_j43181601194858_1_alg».proof.Proof.Gen.KernelIdeal.Launch
import proofs.«178023_j43181601194858_1_alg».proof.Proof.Gen.KernelIdeal.Skeleton
import proofs.«178023_j43181601194858_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hop

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Hop 1: what the runs of its three control cases share

A grid point is a pair (row block, column block); the column block is the point's number modulo 8. The body zeroes the
accumulator at column block 0, adds one block product at every point, and at column block 7 stores the finished rows. -/

/-- Window `w`'s block at point `t`, read off its array as the hop finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, in closed form over the grid -/

/-- "This is column block 0": the accumulator is zeroed first. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is column block 7": the finished rows are stored. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from column block 7 the output window is idle and not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The memrefs the body is called with -/

abbrev VO1_4 : View sig .tc .vmem S1024x128 .f32 := (Memref.whole cc1_stg4_0 : Memref sig .tc .vmem S1024x128 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x128 .f32 := win1_4.stage (cfg1.slots t 4)
abbrev hs1_4 (t : Fin cfg1.N) : (ms1_4 t).IsWhole := hstage1_4 ((cfg1.slots t 4).cast nbuf1_4)
/-- The accumulator: a whole scoped buffer of the kernel's own. -/
abbrev scM1 : Memref sig .tc .vmem S1024x128 .f32 := Memref.whole cc1_scratch0
abbrev VS1 : View sig .tc .vmem S1024x128 .f32 := scM1.view

/-- The scoped buffers of the core other than this hop's staging buffers and accumulator, each at some contents. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- The scoped rest with the accumulator first. -/
theorem scopedRest1_acc (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f)) :=
  Pipeline.scopedRest_eq_of_list spec1 c [cc1_scratch0, cc0_stg0_0, cc0_stg0_1, cc0_stg1_0, cc0_stg2_0, cc0_stg3_0, cc0_stg4_0, cc0_stg4_1, cc0_scratch0] (by decide) (by decide)

/-- The class invariant with the accumulator owned as a memref at some contents. -/
theorem PhiA1_eq (c : Dev nD) :
    (Pipeline.ΦA spec1 c : sProp 𝕄)
      = iprop(iprop((∃ d, owns (c : Thread nD τ) scM1 fullShare d) ∗ Rest1 c) ∗ (∃ r, prngReg c r)) := by
  unfold Pipeline.ΦA Rest1; rw [scopedRest1_acc]; simp only [scM1, owns_whole]; try rfl

end Cert.KernelIdeal.Hop

end
-- ==== Proof.KI.R1RunA.lean ====
import proofs.«178023_j43181601194858_1_alg».proof.Proof.KI.R1Base

set_option maxRecDepth 16384

noncomputable section

namespace Cert.KernelIdeal.Hop

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- COLUMN BLOCK 0 (the first condition holds, the second does not). On whole memrefs — the inputs at their contents, the
    output at contents handed back untouched, the accumulator at anything — the body runs to the continuation with the
    inputs and the output as they were and the accumulator with the pieces `LS0` written: the zero block, then the
    zero block plus this point's block product. The pieces are the stores the body makes, the last first. -/
noncomputable def kernelRun1_A (c : Dev nD) (i : grid1.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x2048 .f32) (x1 : Vec F S16384x128 .f32) (x2 : Vec F S128x128 .f32) (x3 : Vec F S128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__hop_kernel i arg2 harg2 arg3 harg3 arg4 harg4 arg5 harg5 arg6 harg6 arg7 harg7) K } := by
  refine ⟨[], ?_, fun xi4 E K => ?run⟩
  case run =>
    simp only [cc1__hop_kernel_eq_skeleton]; unfold cc1__hop_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hop

end
-- ==== Proof.KI.R1RunB.lean ====
import proofs.«178023_j43181601194858_1_alg».proof.Proof.KI.R1Base

set_option maxRecDepth 16384

noncomputable section

namespace Cert.KernelIdeal.Hop

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- COLUMN BLOCKS 1 TO 6 (neither condition holds). The accumulator enters at what the point before left (`xs0`) and
    leaves with one piece written: `xs0` plus this point's block product. The output is handed back untouched. -/
noncomputable def kernelRun1_B (c : Dev nD) (i : grid1.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x2048 .f32) (x1 : Vec F S16384x128 .f32) (x2 : Vec F S128x128 .f32) (x3 : Vec F S128 .f32) (xs0 : Vec F S1024x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__hop_kernel i arg2 harg2 arg3 harg3 arg4 harg4 arg5 harg5 arg6 harg6 arg7 harg7) K } := by
  refine ⟨[], ?_, fun xi4 E K => ?run⟩
  case run =>
    simp only [cc1__hop_kernel_eq_skeleton]; unfold cc1__hop_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hop

end
-- ==== Proof.KI.R1RunC.lean ====
import proofs.«178023_j43181601194858_1_alg».proof.Proof.KI.R1Base

set_option maxRecDepth 16384

noncomputable section

namespace Cert.KernelIdeal.Hop

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- COLUMN BLOCK 7 (the second condition holds, the first does not). The accumulator enters at `xs0` and leaves with
    `xs0` plus this point's block product written; the output, entered at anything, leaves with one piece written: the
    finished rows (the accumulator times the weights, plus the bias, times its logistic). -/
noncomputable def kernelRun1_C (c : Dev nD) (i : grid1.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x2048 .f32) (x1 : Vec F S16384x128 .f32) (x2 : Vec F S128x128 .f32) (x3 : Vec F S128 .f32) (xs0 : Vec F S1024x128 .f32) :
    Σ' (L4 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__hop_kernel i arg2 harg2 arg3 harg3 arg4 harg4 arg5 harg5 arg6 harg6 arg7 harg7) K } := by
  refine ⟨?_, ?_, fun E K => ?run⟩
  case run =>
    simp only [cc1__hop_kernel_eq_skeleton]; unfold cc1__hop_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hop

end
-- ==== Proof.KI.R1Frame.lean ====
import proofs.«178023_j43181601194858_1_alg».proof.Proof.KI.R1RunA
import proofs.«178023_j43181601194858_1_alg».proof.Proof.KI.R1RunB
import proofs.«178023_j43181601194858_1_alg».proof.Proof.KI.R1RunC

set_option maxRecDepth 16384

noncomputable section

namespace Cert.KernelIdeal.Hop

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output's staging buffer: its pieces read back (none: a placeholder nothing consults, the window being idle there). -/
def out1_A (c : Dev nD) (i : grid1.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x2048 .f32) (x1 : Vec F S16384x128 .f32) (x2 : Vec F S128x128 .f32) (x3 : Vec F S128 .f32) : Vec F S1024x128 .f32 :=
  VO1_4.read (Elt F) (VO1_4.writes (Elt F) VO1_4.junk (kernelRun1_A c i arg2 harg2 arg3 harg3 arg4 harg4 arg5 harg5 arg6 harg6 arg7 harg7 hc0 hc1 x0 x1 x2 x3).1)

/-- Case A's pieces for the accumulator cover it. -/
theorem scover1_A (c : Dev nD) (i : grid1.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x2048 .f32) (x1 : Vec F S16384x128 .f32) (x2 : Vec F S128x128 .f32) (x3 : Vec F S128 .f32) (y : S1024x128.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S1024x128.size (by sl_kernel_rfl) y

/-- What case A leaves in the accumulator: its pieces read back. -/
def sout1_A (c : Dev nD) (i : grid1.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x2048 .f32) (x1 : Vec F S16384x128 .f32) (x2 : Vec F S128x128 .f32) (x3 : Vec F S128 .f32) : Vec F S1024x128 .f32 :=
  VS1.read (Elt F) (VS1.writes (Elt F) VS1.junk (kernelRun1_A c i arg2 harg2 arg3 harg3 arg4 harg4 arg5 harg5 arg6 harg6 arg7 harg7 hc0 hc1 x0 x1 x2 x3).2.1)

/-- What case B leaves in the output's staging buffer: its pieces read back (none: a placeholder nothing consults, the window being idle there). -/
def out1_B (c : Dev nD) (i : grid1.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x2048 .f32) (x1 : Vec F S16384x128 .f32) (x2 : Vec F S128x128 .f32) (x3 : Vec F S128 .f32) (xs0 : Vec F S1024x128 .f32) : Vec F S1024x128 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xs0).1)

/-- Case B's pieces for the accumulator cover it. -/
theorem scover1_B (c : Dev nD) (i : grid1.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x2048 .f32) (x1 : Vec F S16384x128 .f32) (x2 : Vec F S128x128 .f32) (x3 : Vec F S128 .f32) (xs0 : Vec F S1024x128 .f32) (y : S1024x128.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S1024x128.size (by sl_kernel_rfl) y

/-- What case B leaves in the accumulator: its pieces read back. -/
def sout1_B (c : Dev nD) (i : grid1.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x2048 .f32) (x1 : Vec F S16384x128 .f32) (x2 : Vec F S128x128 .f32) (x3 : Vec F S128 .f32) (xs0 : Vec F S1024x128 .f32) : Vec F S1024x128 .f32 :=
  VS1.read (Elt F) (VS1.writes (Elt F) VS1.junk (kernelRun1_B c i arg2 harg2 arg3 harg3 arg4 harg4 arg5 harg5 arg6 harg6 arg7 harg7 hc0 hc1 x0 x1 x2 x3 xs0).2.1)

/-- What case C leaves in the output's staging buffer: its pieces read back. -/
def out1_C (c : Dev nD) (i : grid1.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x2048 .f32) (x1 : Vec F S16384x128 .f32) (x2 : Vec F S128x128 .f32) (x3 : Vec F S128 .f32) (xs0 : Vec F S1024x128 .f32) : Vec F S1024x128 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)

/-- Case C's pieces for the accumulator cover it. -/
theorem scover1_C (c : Dev nD) (i : grid1.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x2048 .f32) (x1 : Vec F S16384x128 .f32) (x2 : Vec F S128x128 .f32) (x3 : Vec F S128 .f32) (xs0 : Vec F S1024x128 .f32) (y : S1024x128.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S1024x128.size (by sl_kernel_rfl) y

/-- What case C leaves in the accumulator: its pieces read back. -/
def sout1_C (c : Dev nD) (i : grid1.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x2048 .f32) (x1 : Vec F S16384x128 .f32) (x2 : Vec F S128x128 .f32) (x3 : Vec F S128 .f32) (xs0 : Vec F S1024x128 .f32) : Vec F S1024x128 .f32 :=
  VS1.read (Elt F) (VS1.writes (Elt F) VS1.junk (kernelRun1_C c i arg2 harg2 arg3 harg3 arg4 harg4 arg5 harg5 arg6 harg6 arg7 harg7 hc0 hc1 x0 x1 x2 x3 xs0).2.1)

/-- Case C's one store into the output covers its block. -/
theorem cover1_C (c : Dev nD) (i : grid1.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x2048 .f32) (x1 : Vec F S16384x128 .f32) (x2 : Vec F S128x128 .f32) (x3 : Vec F S128 .f32) (xs0 : Vec F S1024x128 .f32) (y : S1024x128.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S1024x128.size (by sl_kernel_rfl) y

/-! ## What the output's buffer and the accumulator hold after each point -/

/-- THE ACCUMULATION, point by point (first the output's staging buffer, then the accumulator): the case the closed
    forms select at `n`, run at the point's memrefs and input blocks, the accumulator entering at what point `n - 1` left. -/
def outsAt1 (c : Dev nD) : (n : ℕ) → n < cfg1.N → Vec F S1024x128 .f32 × Vec F S1024x128 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      if h1 : (n + 1) % 8 = 7 then
        False.elim (by omega)
      else
        (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 8 = 7 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t), sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The hop's invariant before position `n`: before the first point every scoped buffer at anything; afterwards the
    accumulator at what the point before left, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ Rest1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Rest1 c) ∗ (∃ r, prngReg c r)) := by
  cases n with
  | zero => exact absurd rfl hz
  | succ n => rfl

/-! ## The proof data -/

/-- The hop's proof data on core `c`: the arrays as the hop finds them; after the body at point `t` each input's
    buffer at its block and the output's at `outsAt1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the inputs' memrefs hold their blocks; the closed forms say which case the point is in; the
    invariant hands the body the accumulator at what the point before left (at anything at the first point) and takes it
    back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A c _ _ _ _ _ _ _ _ _ _ _ _ _ _ _ _ _ _ _ )
            iexact HR
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A c _ _ _ _ _ _ _ _ _ _ _ _ _ _ _ _ _ _ _ )
            iexact HR
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun hz => h0 (by rw [hz])
    by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C sout1_C; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C c _ _ _ _ _ _ _ _ _ _ _ _ _ _ _ _ _ _ _ _ )
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C c _ _ _ _ _ _ _ _ _ _ _ _ _ _ _ _ _ _ _ _ )
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B c _ _ _ _ _ _ _ _ _ _ _ _ _ _ _ _ _ _ _ _ )
          iexact HR
        iexact Hg
      isplitl [Ho]; · iexact Ho
      isplitl [H0]; · iexact H0
      isplitl [H1]; · iexact H1
      isplitl [H2]; · iexact H2
      isplitl [H3]; · iexact H3
      iexists _; iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

/-- Before the first point the invariant is the class's. -/
theorem Phi_in1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the accumulator's contents are forgotten. -/
theorem Phi_out1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨HS0, HR⟩, Hg⟩
  isplitl [HS0 HR]
  · isplitl [HS0]
    · iexists _; iexact HS0
    iexact HR
  iexact Hg

end Cert.KernelIdeal.Hop

end
-- ==== Proof.KI.Regions.lean ====
import proofs.«178023_j43181601194858_1_alg».proof.Proof.KI.R0Frame
import proofs.«178023_j43181601194858_1_alg».proof.Proof.KI.R1Frame

set_option maxRecDepth 16384

noncomputable section

namespace Cert.KernelIdeal.Hop

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The two hops in sequence: the buffers' contents at each boundary, a fold from the launch memory -/

/-- Core `c`'s buffers at launch (hop 0's entry). -/
abbrev W0 : Dev nD → Valuation τ sig (Elt F) := fun c b => m ((c : Dev nD), b)
abbrev V0 : (c : Dev nD) → (b : Ref sig .tc) → Buf (Elt F) ((c : Thread nD τ).loc b) := fun c b => W0 m c b

/-- At hop 0's exit: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- At hop 1's exit: its arrays at what the pipeline leaves, every other buffer as entered. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- No hop writes `main_arg0`: it reaches the end as launched. -/
theorem W2_main_arg0 (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := (W1_arr m c 1).trans (((dat0 (V0 m) c).arrAt_in 1 rfl _).trans (A_eq0 (V0 m) c 1))
    _ = m ((c : Thread nD τ).loc main_arg0) := rfl

/-- No hop writes `main_arg1`: it reaches the end as launched. -/
theorem W2_main_arg1 (c : Dev nD) : W2 m c (Proc.devRef .tc main_arg1) = m ((c : Thread nD τ).loc main_arg1) :=
  calc W2 m c (Proc.devRef .tc main_arg1)
    _ = W1 m c (Proc.devRef .tc main_arg1) := (W2_arr m c 0).trans (((dat1 (V1 m) c).arrAt_in 0 rfl _).trans (A_eq1 (V1 m) c 0))
    _ = W0 m c (Proc.devRef .tc main_arg1) := (W1_arr m c 0).trans (((dat0 (V0 m) c).arrAt_in 0 rfl _).trans (A_eq0 (V0 m) c 0))
    _ = m ((c : Thread nD τ).loc main_arg1) := rfl

/-- No hop writes `main_arg2`: it reaches the end as launched. -/
theorem W2_main_arg2 (c : Dev nD) : W2 m c (Proc.devRef .tc main_arg2) = m ((c : Thread nD τ).loc main_arg2) :=
  calc W2 m c (Proc.devRef .tc main_arg2)
    _ = W1 m c (Proc.devRef .tc main_arg2) := (W2_arr m c 2).trans (((dat1 (V1 m) c).arrAt_in 2 rfl _).trans (A_eq1 (V1 m) c 2))
    _ = W0 m c (Proc.devRef .tc main_arg2) := (W1_arr m c 2).trans (((dat0 (V0 m) c).arrAt_in 2 rfl _).trans (A_eq0 (V0 m) c 2))
    _ = m ((c : Thread nD τ).loc main_arg2) := rfl

/-- No hop writes `main_arg3`: it reaches the end as launched. -/
theorem W2_main_arg3 (c : Dev nD) : W2 m c (Proc.devRef .tc main_arg3) = m ((c : Thread nD τ).loc main_arg3) :=
  calc W2 m c (Proc.devRef .tc main_arg3)
    _ = W1 m c (Proc.devRef .tc main_arg3) := (W2_arr m c 3).trans (((dat1 (V1 m) c).arrAt_in 3 rfl _).trans (A_eq1 (V1 m) c 3))
    _ = W0 m c (Proc.devRef .tc main_arg3) := (W1_arr m c 3).trans (((dat0 (V0 m) c).arrAt_in 3 rfl _).trans (A_eq0 (V0 m) c 3))
    _ = m ((c : Thread nD τ).loc main_arg3) := rfl

/-- The final result is what hop 1's write-backs leave. -/
theorem W2_main_v1 (c : Dev nD) : W2 m c (Proc.devRef .tc main_v1) = (dat1 (V1 m) c).arrAt 4 cfg1.N := W2_arr m c 4
/-- Hop 1 reads, as its second operand, what hop 0's write-backs leave. -/
theorem V1_main_v0 (c : Dev nD) : V1 m c main_v0 = (dat0 (V0 m) c).arrAt 4 cfg0.N := W1_arr m c 4
/-- and the other operands as launched. -/
theorem V1_main_arg1 (c : Dev nD) : V1 m c main_arg1 = m ((c : Thread nD τ).loc main_arg1) :=
  (W1_arr m c 0).trans (((dat0 (V0 m) c).arrAt_in 0 rfl _).trans (A_eq0 (V0 m) c 0))
theorem V1_main_arg2 (c : Dev nD) : V1 m c main_arg2 = m ((c : Thread nD τ).loc main_arg2) :=
  (W1_arr m c 2).trans (((dat0 (V0 m) c).arrAt_in 2 rfl _).trans (A_eq0 (V0 m) c 2))
theorem V1_main_arg3 (c : Dev nD) : V1 m c main_arg3 = m ((c : Thread nD τ).loc main_arg3) :=
  (W1_arr m c 3).trans (((dat0 (V0 m) c).arrAt_in 3 rfl _).trans (A_eq0 (V0 m) c 3))

/-! ## The proof data family and the thread state -/

abbrev adm : (p : Fin 2) → (pcfgs (F := F) p).Adm := fun p => (cfgs p).toPCfg_adm
/-- Both hops' proof data, each at its entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The hops as segments -/

set_option backward.isDefEq.respectTransparency.types false in
/-- HOP 0 over the thread state: entered from every unscoped buffer at `W0`, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    refine (show (pdats m 0 c).Φ (Fin.last _) ⊢ Pipeline.ΦA spec0 c from Phi_out0 (V0 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- HOP 1 over the thread state: entered from every unscoped buffer at `W1`, left at `W2`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    refine (show (pdats m 1 c).Φ (Fin.last _) ⊢ Pipeline.ΦA spec1 c from Phi_out1 (V1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- THE RUN of both hops: from any memory with zero counters every weakly fair execution of @main terminates, nothing
    faulting, and every final state holds every unscoped buffer at the last boundary's contents `W2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c)⟩) (run_all m ρ)

end Cert.KernelIdeal.Hop

end
-- ==== Proof.KI.Blocks.lean ====
import proofs.«178023_j43181601194858_1_alg».proof.Proof.KI.R0Frame
import proofs.«178023_j43181601194858_1_alg».proof.Proof.KI.R1Frame
import Idealize.ShloMosaic.Lib.Pipeline.Value
import Idealize.ShloMosaic.Lib.ValueIdx

/-! Each hop's input blocks as elements of the arrays the hop finds, and its result array from the blocks the
points at column block 7 store: row block `t / 8` of the result is what point `t` leaves, for `t % 8 = 7`. -/

set_option maxRecDepth 16384

noncomputable section

namespace Cert.KernelIdeal.HopVal

open Cert.KernelIdeal Cert.KernelIdeal.Gen Cert.KernelIdeal.Hop
open Idealize.ShloMosaic Idealize.ShloMosaic.TcCoe Idealize.ShloMosaic.ValueIdx
open Idealize.SL Idealize.SL.Sem
open Idealize.ShloMosaic.Pipeline (Dat)

variable {F : FTy → Type} [FloatOps F]

variable (V : (c : Dev nD) → (b : Ref sig .tc) → Buf (Elt F) ((c : Thread nD τ).loc b))

/-! # Hop 0 -/

/-- The block indices of hop 0's windows at point `t`: the matrix's block is (row block, column block) = (t / 8, t % 8), the
    result's is row block t / 8, and the other three windows hold their whole arrays. -/
theorem idx0_0 : ∀ t : Fin cfg0.N, win0_0.index t (0 : Fin 2) = t.val / 8 ∧ win0_0.index t (1 : Fin 2) = t.val % 8 :=
  (by decide +kernel : ∀ t : Fin grid0.N, win0_0.index t (0 : Fin 2) = t.val / 8 ∧ win0_0.index t (1 : Fin 2) = t.val % 8)
theorem idx0_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx0_3 : ∀ t : Fin cfg0.N, win0_3.index t (0 : Fin 1) = 0 :=
  (by decide +kernel : ∀ t : Fin grid0.N, win0_3.index t (0 : Fin 1) = 0)
theorem idx0_4 : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)

/-- A point's row block ends inside the 16384 rows. -/
theorem row0_lt (t : Fin cfg0.N) (p : Fin 1024) : (t.val / 8) * 1024 + p.val < 16384 := by
  have hN : t.val < 128 := lt_of_lt_of_eq t.isLt (show cfg0.N = 128 from N_0)
  have hp := p.isLt
  omega
/-- A point's column block ends inside the 16384 columns. -/
theorem col0_lt (t : Fin cfg0.N) (kk : Fin 2048) : (t.val % 8) * 2048 + kk.val < 16384 := by
  have hk := kk.isLt
  omega

/-- The matrix's block at point `t`: rows of row block t / 8, columns of column block t % 8. -/
theorem iblk0_adj (c : Dev nD) (t : Fin cfg0.N) (p : Fin 1024) (kk : Fin 2048) :
    (iblk0 V c 0 t : Vec F S1024x2048 .f32) (ix2 p kk)
      = (V c main_arg1 : S16384x16384.Idx → Elt F .f32) (ix2 ⟨(t.val / 8) * 1024 + p.val, row0_lt t p⟩ ⟨(t.val % 8) * 2048 + kk.val, col0_lt t kk⟩) := by
  obtain ⟨e0, e1⟩ := idx0_0 t
  unfold iblk0
  rw [View.read_apply]
  show V c main_arg1 _ = V c main_arg1 _
  congr 1
  funext a
  apply Fin.ext
  match a with
  | ⟨0, _⟩ => show win0_0.index t (0 : Fin 2) * 1024 + 1 * p.val = (t.val / 8) * 1024 + p.val; rw [e0]; omega
  | ⟨1, _⟩ => show win0_0.index t (1 : Fin 2) * 2048 + 1 * kk.val = (t.val % 8) * 2048 + kk.val; rw [e1]; omega

/-- The features' block at every point is the whole array. -/
theorem iblk0_y (c : Dev nD) (t : Fin cfg0.N) (k : Fin 16384) (q : Fin 128) :
    (iblk0 V c 1 t : Vec F S16384x128 .f32) (ix2 k q) = (V c main_arg0 : S16384x128.Idx → Elt F .f32) (ix2 k q) := by
  obtain ⟨e0, e1⟩ := idx0_1 t
  unfold iblk0
  rw [View.read_apply]
  show V c main_arg0 _ = V c main_arg0 _
  congr 1
  funext a
  apply Fin.ext
  match a with
  | ⟨0, _⟩ => show win0_1.index t (0 : Fin 2) * 16384 + 1 * k.val = k.val; rw [e0]; omega
  | ⟨1, _⟩ => show win0_1.index t (1 : Fin 2) * 128 + 1 * q.val = q.val; rw [e1]; omega

/-- The weights' block at every point is the whole array. -/
theorem iblk0_w (c : Dev nD) (t : Fin cfg0.N) (u q : Fin 128) :
    (iblk0 V c 2 t : Vec F S128x128 .f32) (ix2 u q) = (V c main_arg2 : S128x128.Idx → Elt F .f32) (ix2 u q) := by
  obtain ⟨e0, e1⟩ := idx0_2 t
  unfold iblk0
  rw [View.read_apply]
  show V c main_arg2 _ = V c main_arg2 _
  congr 1
  funext a
  apply Fin.ext
  match a with
  | ⟨0, _⟩ => show win0_2.index t (0 : Fin 2) * 128 + 1 * u.val = u.val; rw [e0]; omega
  | ⟨1, _⟩ => show win0_2.index t (1 : Fin 2) * 128 + 1 * q.val = q.val; rw [e1]; omega

/-- The bias's block at every point is the whole array. -/
theorem iblk0_b (c : Dev nD) (t : Fin cfg0.N) (q : Fin 128) :
    (iblk0 V c 3 t : Vec F S128 .f32) (ix1 q) = (V c main_arg3 : S128.Idx → Elt F .f32) (ix1 q) := by
  have e0 := idx0_3 t
  unfold iblk0
  rw [View.read_apply]
  show V c main_arg3 _ = V c main_arg3 _
  congr 1
  funext a
  apply Fin.ext
  match a with
  | ⟨0, _⟩ => show win0_3.index t (0 : Fin 1) * 128 + 1 * q.val = q.val; rw [e0]; omega

/-! ## Hop 0's result array from the stored row blocks -/

/-- What a point at column block 7 writes back is its row block of `G`, when what it leaves in the output's buffer is. -/
theorem flushed0_eq (c : Dev nD) (G : Buf (Elt F) ((c : Thread nD τ).loc main_v0))
    (hG : ∀ (t : Fin cfg0.N), t.val % 8 = 7 → ∀ (p : Fin 1024) (q : Fin 128),
      (outsAt0 V c t.val t.isLt).1 (ix2 p q)
        = (G : S16384x128.Idx → Elt F .f32) (ix2 ⟨(t.val / 8) * 1024 + p.val, row0_lt t p⟩ q))
    (t : Fin cfg0.N) (hf : (cfg0.win 4).flush t = true) :
    (dat0 V c).flushed 4 t = ((cfg0.win 4).blk t).view.read (Elt F) G := by
  have h7 : t.val % 8 = 7 := (flush0_4 t).mp hf
  obtain ⟨e0, e1⟩ := idx0_4 t
  show (cfg0.win 4).cut (grid0.coords t) ((dat0 V c).after 4 t) = _
  rw [after0_4]
  funext y
  obtain ⟨p, q, rfl⟩ : ∃ (p : Fin 1024) (q : Fin 128), (y : S1024x128.Idx) = ix2 p q := ⟨y 0, y 1, eq_ix2 (n0 := 1024) (n1 := 128) y⟩
  rw [View.read_apply]
  show (outsAt0 V c t.val t.isLt).1 (ix2 p q) = G _
  rw [hG t h7 p q]
  congr 1
  funext a
  apply Fin.ext
  match a with
  | ⟨0, _⟩ => show (t.val / 8) * 1024 + p.val = win0_4.index t (0 : Fin 2) * 1024 + 1 * p.val; rw [e0]; omega
  | ⟨1, _⟩ => show q.val = win0_4.index t (1 : Fin 2) * 128 + 1 * q.val; rw [e1]; omega

/-- An index of the result array is in point `t`'s block iff each coordinate is in the block's range on its axis. -/
theorem mem_blk0 (t : Fin cfg0.N) (i : S16384x128.Idx) :
    i ∈ ((cfg0.win 4).blk t).view.set ↔ ∀ a : Fin 2, win0_4.index t a * S1024x128.size a ≤ (i a).val ∧ (i a).val < win0_4.index t a * S1024x128.size a + S1024x128.size a := by
  show i ∈ ((View.whole main_v0).slice (win0_4.rect t)).set ↔ _
  rw [View.set_slice_whole, Rect.mem_set_unit]
  exact Iff.rfl

/-- Every row is in the block of the point at column block 7 of its row block. -/
theorem cover0 (i : S16384x128.Idx) :
    ∃ t : Fin cfg0.N, (cfg0.win 4).flush t = true ∧ i ∈ ((cfg0.win 4).blk t).view.set := by
  have hi0 : (i 0).val < 16384 := (i 0).isLt
  have hi1 : (i 1).val < 128 := (i 1).isLt
  obtain ⟨t, ht⟩ : ∃ t : Fin cfg0.N, t.val = (i 0).val / 1024 * 8 + 7 :=
    ⟨⟨(i 0).val / 1024 * 8 + 7, by rw [show cfg0.N = 128 from N_0]; omega⟩, rfl⟩
  obtain ⟨e0, e1⟩ := idx0_4 t
  refine ⟨t, (flush0_4 t).mpr (by omega), ?_⟩
  rw [mem_blk0]
  intro a
  match a with
  | ⟨0, _⟩ => show win0_4.index t (0 : Fin 2) * 1024 ≤ (i 0).val ∧ (i 0).val < win0_4.index t (0 : Fin 2) * 1024 + 1024; rw [e0]; omega
  | ⟨1, _⟩ => show win0_4.index t (1 : Fin 2) * 128 ≤ (i 1).val ∧ (i 1).val < win0_4.index t (1 : Fin 2) * 128 + 128; rw [e1]; omega

/-- The result array after hop 0 is `G`, when every point at column block 7 leaves its row block of `G` in the output's buffer. -/
theorem final0 (c : Dev nD) (G : Buf (Elt F) ((c : Thread nD τ).loc main_v0))
    (hG : ∀ (t : Fin cfg0.N), t.val % 8 = 7 → ∀ (p : Fin 1024) (q : Fin 128),
      (outsAt0 V c t.val t.isLt).1 (ix2 p q)
        = (G : S16384x128.Idx → Elt F .f32) (ix2 ⟨(t.val / 8) * 1024 + p.val, row0_lt t p⟩ q)) :
    (dat0 V c).arrAt 4 cfg0.N = G :=
  (dat0 V c).arrAt_eq_of_cover 4 G (fun t hf => flushed0_eq V c G hG t hf) (fun i => cover0 i)

/-! # Hop 1 -/

/-- The block indices of hop 1's windows at point `t`: the matrix's block is (row block, column block) = (t / 8, t % 8), the
    result's is row block t / 8, and the other three windows hold their whole arrays. -/
theorem idx1_0 : ∀ t : Fin cfg1.N, win1_0.index t (0 : Fin 2) = t.val / 8 ∧ win1_0.index t (1 : Fin 2) = t.val % 8 :=
  (by decide +kernel : ∀ t : Fin grid1.N, win1_0.index t (0 : Fin 2) = t.val / 8 ∧ win1_0.index t (1 : Fin 2) = t.val % 8)
theorem idx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem idx1_3 : ∀ t : Fin cfg1.N, win1_3.index t (0 : Fin 1) = 0 :=
  (by decide +kernel : ∀ t : Fin grid1.N, win1_3.index t (0 : Fin 1) = 0)
theorem idx1_4 : ∀ t : Fin cfg1.N, win1_4.index t (0 : Fin 2) = t.val / 8 ∧ win1_4.index t (1 : Fin 2) = 0 :=
  (by decide +kernel : ∀ t : Fin grid1.N, win1_4.index t (0 : Fin 2) = t.val / 8 ∧ win1_4.index t (1 : Fin 2) = 0)

/-- A point's row block ends inside the 16384 rows. -/
theorem row1_lt (t : Fin cfg1.N) (p : Fin 1024) : (t.val / 8) * 1024 + p.val < 16384 := by
  have hN : t.val < 128 := lt_of_lt_of_eq t.isLt (show cfg1.N = 128 from N_1)
  have hp := p.isLt
  omega
/-- A point's column block ends inside the 16384 columns. -/
theorem col1_lt (t : Fin cfg1.N) (kk : Fin 2048) : (t.val % 8) * 2048 + kk.val < 16384 := by
  have hk := kk.isLt
  omega

/-- The matrix's block at point `t`: rows of row block t / 8, columns of column block t % 8. -/
theorem iblk1_adj (c : Dev nD) (t : Fin cfg1.N) (p : Fin 1024) (kk : Fin 2048) :
    (iblk1 V c 0 t : Vec F S1024x2048 .f32) (ix2 p kk)
      = (V c main_arg1 : S16384x16384.Idx → Elt F .f32) (ix2 ⟨(t.val / 8) * 1024 + p.val, row1_lt t p⟩ ⟨(t.val % 8) * 2048 + kk.val, col1_lt t kk⟩) := by
  obtain ⟨e0, e1⟩ := idx1_0 t
  unfold iblk1
  rw [View.read_apply]
  show V c main_arg1 _ = V c main_arg1 _
  congr 1
  funext a
  apply Fin.ext
  match a with
  | ⟨0, _⟩ => show win1_0.index t (0 : Fin 2) * 1024 + 1 * p.val = (t.val / 8) * 1024 + p.val; rw [e0]; omega
  | ⟨1, _⟩ => show win1_0.index t (1 : Fin 2) * 2048 + 1 * kk.val = (t.val % 8) * 2048 + kk.val; rw [e1]; omega

/-- The features' block at every point is the whole array. -/
theorem iblk1_y (c : Dev nD) (t : Fin cfg1.N) (k : Fin 16384) (q : Fin 128) :
    (iblk1 V c 1 t : Vec F S16384x128 .f32) (ix2 k q) = (V c main_v0 : S16384x128.Idx → Elt F .f32) (ix2 k q) := by
  obtain ⟨e0, e1⟩ := idx1_1 t
  unfold iblk1
  rw [View.read_apply]
  show V c main_v0 _ = V c main_v0 _
  congr 1
  funext a
  apply Fin.ext
  match a with
  | ⟨0, _⟩ => show win1_1.index t (0 : Fin 2) * 16384 + 1 * k.val = k.val; rw [e0]; omega
  | ⟨1, _⟩ => show win1_1.index t (1 : Fin 2) * 128 + 1 * q.val = q.val; rw [e1]; omega

/-- The weights' block at every point is the whole array. -/
theorem iblk1_w (c : Dev nD) (t : Fin cfg1.N) (u q : Fin 128) :
    (iblk1 V c 2 t : Vec F S128x128 .f32) (ix2 u q) = (V c main_arg2 : S128x128.Idx → Elt F .f32) (ix2 u q) := by
  obtain ⟨e0, e1⟩ := idx1_2 t
  unfold iblk1
  rw [View.read_apply]
  show V c main_arg2 _ = V c main_arg2 _
  congr 1
  funext a
  apply Fin.ext
  match a with
  | ⟨0, _⟩ => show win1_2.index t (0 : Fin 2) * 128 + 1 * u.val = u.val; rw [e0]; omega
  | ⟨1, _⟩ => show win1_2.index t (1 : Fin 2) * 128 + 1 * q.val = q.val; rw [e1]; omega

/-- The bias's block at every point is the whole array. -/
theorem iblk1_b (c : Dev nD) (t : Fin cfg1.N) (q : Fin 128) :
    (iblk1 V c 3 t : Vec F S128 .f32) (ix1 q) = (V c main_arg3 : S128.Idx → Elt F .f32) (ix1 q) := by
  have e0 := idx1_3 t
  unfold iblk1
  rw [View.read_apply]
  show V c main_arg3 _ = V c main_arg3 _
  congr 1
  funext a
  apply Fin.ext
  match a with
  | ⟨0, _⟩ => show win1_3.index t (0 : Fin 1) * 128 + 1 * q.val = q.val; rw [e0]; omega

/-! ## Hop 1's result array from the stored row blocks -/

/-- What a point at column block 7 writes back is its row block of `G`, when what it leaves in the output's buffer is. -/
theorem flushed1_eq (c : Dev nD) (G : Buf (Elt F) ((c : Thread nD τ).loc main_v1))
    (hG : ∀ (t : Fin cfg1.N), t.val % 8 = 7 → ∀ (p : Fin 1024) (q : Fin 128),
      (outsAt1 V c t.val t.isLt).1 (ix2 p q)
        = (G : S16384x128.Idx → Elt F .f32) (ix2 ⟨(t.val / 8) * 1024 + p.val, row1_lt t p⟩ q))
    (t : Fin cfg1.N) (hf : (cfg1.win 4).flush t = true) :
    (dat1 V c).flushed 4 t = ((cfg1.win 4).blk t).view.read (Elt F) G := by
  have h7 : t.val % 8 = 7 := (flush1_4 t).mp hf
  obtain ⟨e0, e1⟩ := idx1_4 t
  show (cfg1.win 4).cut (grid1.coords t) ((dat1 V c).after 4 t) = _
  rw [after1_4]
  funext y
  obtain ⟨p, q, rfl⟩ : ∃ (p : Fin 1024) (q : Fin 128), (y : S1024x128.Idx) = ix2 p q := ⟨y 0, y 1, eq_ix2 (n0 := 1024) (n1 := 128) y⟩
  rw [View.read_apply]
  show (outsAt1 V c t.val t.isLt).1 (ix2 p q) = G _
  rw [hG t h7 p q]
  congr 1
  funext a
  apply Fin.ext
  match a with
  | ⟨0, _⟩ => show (t.val / 8) * 1024 + p.val = win1_4.index t (0 : Fin 2) * 1024 + 1 * p.val; rw [e0]; omega
  | ⟨1, _⟩ => show q.val = win1_4.index t (1 : Fin 2) * 128 + 1 * q.val; rw [e1]; omega

/-- An index of the result array is in point `t`'s block iff each coordinate is in the block's range on its axis. -/
theorem mem_blk1 (t : Fin cfg1.N) (i : S16384x128.Idx) :
    i ∈ ((cfg1.win 4).blk t).view.set ↔ ∀ a : Fin 2, win1_4.index t a * S1024x128.size a ≤ (i a).val ∧ (i a).val < win1_4.index t a * S1024x128.size a + S1024x128.size a := by
  show i ∈ ((View.whole main_v1).slice (win1_4.rect t)).set ↔ _
  rw [View.set_slice_whole, Rect.mem_set_unit]
  exact Iff.rfl

/-- Every row is in the block of the point at column block 7 of its row block. -/
theorem cover1 (i : S16384x128.Idx) :
    ∃ t : Fin cfg1.N, (cfg1.win 4).flush t = true ∧ i ∈ ((cfg1.win 4).blk t).view.set := by
  have hi0 : (i 0).val < 16384 := (i 0).isLt
  have hi1 : (i 1).val < 128 := (i 1).isLt
  obtain ⟨t, ht⟩ : ∃ t : Fin cfg1.N, t.val = (i 0).val / 1024 * 8 + 7 :=
    ⟨⟨(i 0).val / 1024 * 8 + 7, by rw [show cfg1.N = 128 from N_1]; omega⟩, rfl⟩
  obtain ⟨e0, e1⟩ := idx1_4 t
  refine ⟨t, (flush1_4 t).mpr (by omega), ?_⟩
  rw [mem_blk1]
  intro a
  match a with
  | ⟨0, _⟩ => show win1_4.index t (0 : Fin 2) * 1024 ≤ (i 0).val ∧ (i 0).val < win1_4.index t (0 : Fin 2) * 1024 + 1024; rw [e0]; omega
  | ⟨1, _⟩ => show win1_4.index t (1 : Fin 2) * 128 ≤ (i 1).val ∧ (i 1).val < win1_4.index t (1 : Fin 2) * 128 + 128; rw [e1]; omega

/-- The result array after hop 1 is `G`, when every point at column block 7 leaves its row block of `G` in the output's buffer. -/
theorem final1 (c : Dev nD) (G : Buf (Elt F) ((c : Thread nD τ).loc main_v1))
    (hG : ∀ (t : Fin cfg1.N), t.val % 8 = 7 → ∀ (p : Fin 1024) (q : Fin 128),
      (outsAt1 V c t.val t.isLt).1 (ix2 p q)
        = (G : S16384x128.Idx → Elt F .f32) (ix2 ⟨(t.val / 8) * 1024 + p.val, row1_lt t p⟩ q)) :
    (dat1 V c).arrAt 4 cfg1.N = G :=
  (dat1 V c).arrAt_eq_of_cover 4 G (fun t hf => flushed1_eq V c G hG t hf) (fun i => cover1 i)

end Cert.KernelIdeal.HopVal

end
-- ==== Proof.PayValue.lean ====
/- The kernel's payloads read at an index, at the ideal values: the zero block, one accumulation step
   (accumulator plus a block product), and the last step (product with the weight, plus the bias along
   every row, times its logistic), for both hops. -/
import proofs.«178023_j43181601194858_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Idealize.ShloMosaic Idealize.ShloMosaic.ValueIdx
open Cert.KernelIdeal Cert.KernelIdeal.Gen

variable [Cert.KernelIdeal.Facts]

theorem mmA_lhs0 (i : S1024x128.Idx) (c : dot_S1024x2048_S2048x128_S1024x128_1_0_0_1_n_n.contr.Idx) :
    (dot_S1024x2048_S2048x128_S1024x128_1_0_0_1_n_n.lhsIdx i c 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl

theorem mmA_rhs1 (i : S1024x128.Idx) (c : dot_S1024x2048_S2048x128_S1024x128_1_0_0_1_n_n.contr.Idx) :
    (dot_S1024x2048_S2048x128_S1024x128_1_0_0_1_n_n.rhsIdx i c 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- The block product into the zero splat, read at (p, q): the sum over the contraction index of the products. -/
theorem mmA {φ₁ φ₂ : FTy} (a : FVec Ideal S1024x2048 φ₁) (y : FVec Ideal S2048x128 φ₂) (p : Fin 1024) (q : Fin 128) :
    matmul dot_S1024x2048_S2048x128_S1024x128_1_0_0_1_n_n none a y (constant S1024x128 .f32 0x00000000#32) (ix2 p q)
      = ∑ k : Fin 2048, a (ix2 p k) * y (ix2 k q) := by
  simp only [matmul]
  rw [Ideal.matmul_constant_zero_apply, ← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 p q) ((contrEquiv1 dot_S1024x2048_S2048x128_S1024x128_1_0_0_1_n_n 2048 rfl rfl).symm k) = ix2 p k := funext fun ax => Fin.ext (by
    match ax with
    | ⟨0, _⟩ => exact mmA_lhs0 _ _
    | ⟨1, _⟩ => exact (dot_S1024x2048_S2048x128_S1024x128_1_0_0_1_n_n.lhsIdx_val_of_single rfl _ _).trans hk)
  have er : dot_S1024x2048_S2048x128_S1024x128_1_0_0_1_n_n.rhsIdx (ix2 p q) ((contrEquiv1 dot_S1024x2048_S2048x128_S1024x128_1_0_0_1_n_n 2048 rfl rfl).symm k) = ix2 k q := funext fun ax => Fin.ext (by
    match ax with
    | ⟨0, _⟩ => exact (dot_S1024x2048_S2048x128_S1024x128_1_0_0_1_n_n.rhsIdx_val_of_single rfl _ _).trans hk
    | ⟨1, _⟩ => exact mmA_rhs1 _ _)
  rw [el, er]

theorem mmB_lhs0 (i : S1024x128.Idx) (c : dot_S1024x128_S128x128_S1024x128_1_0_0_1_n_n.contr.Idx) :
    (dot_S1024x128_S128x128_S1024x128_1_0_0_1_n_n.lhsIdx i c 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl

theorem mmB_rhs1 (i : S1024x128.Idx) (c : dot_S1024x128_S128x128_S1024x128_1_0_0_1_n_n.contr.Idx) :
    (dot_S1024x128_S128x128_S1024x128_1_0_0_1_n_n.rhsIdx i c 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- The block product into the zero splat, read at (p, q): the sum over the contraction index of the products. -/
theorem mmB {φ₁ φ₂ : FTy} (a : FVec Ideal S1024x128 φ₁) (y : FVec Ideal S128x128 φ₂) (p : Fin 1024) (q : Fin 128) :
    matmul dot_S1024x128_S128x128_S1024x128_1_0_0_1_n_n none a y (constant S1024x128 .f32 0x00000000#32) (ix2 p q)
      = ∑ k : Fin 128, a (ix2 p k) * y (ix2 k q) := by
  simp only [matmul]
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 p q) ((contrEquiv1 dot_S1024x128_S128x128_S1024x128_1_0_0_1_n_n 128 rfl rfl).symm k) = ix2 p k := funext fun ax => Fin.ext (by
    match ax with
    | ⟨0, _⟩ => exact mmB_lhs0 _ _
    | ⟨1, _⟩ => exact (dot_S1024x128_S128x128_S1024x128_1_0_0_1_n_n.lhsIdx_val_of_single rfl _ _).trans hk)
  have er : dot_S1024x128_S128x128_S1024x128_1_0_0_1_n_n.rhsIdx (ix2 p q) ((contrEquiv1 dot_S1024x128_S128x128_S1024x128_1_0_0_1_n_n 128 rfl rfl).symm k) = ix2 k q := funext fun ax => Fin.ext (by
    match ax with
    | ⟨0, _⟩ => exact (dot_S1024x128_S128x128_S1024x128_1_0_0_1_n_n.rhsIdx_val_of_single rfl _ _).trans hk
    | ⟨1, _⟩ => exact mmB_rhs1 _ _)
  rw [el, er]

/-- `logistic` of a block read at an index is the logistic of the entry. -/
theorem logistic_apply {s : Shape} {φ : FTy} (v : FVec Ideal s φ) (i : s.Idx) : logistic v i = Ideal.logistic (v i) := rfl

/-- The product with the weight plus the bias laid along every row, at (p, q). -/
theorem affine_apply (acc : FVec Ideal S1024x128 .f32) (w : FVec Ideal S128x128 .f32) (b : FVec Ideal S128 .f32)
    (h1 : FTy.bits .bf16 < FTy.bits .f32) (h2 : S128.ShapeCasts S1x128) (h3 : S1x128.Broadcasts S1024x128) (p : Fin 1024) (q : Fin 128) :
    (addf (matmul dot_S1024x128_S128x128_S1024x128_1_0_0_1_n_n none (truncf .bf16 acc h1 : FVec Ideal S1024x128 .bf16) (truncf .bf16 w h1 : FVec Ideal S128x128 .bf16) (constant (F := Ideal) S1024x128 .f32 0x00000000#32))
        (broadcastTo S1024x128 (shapeCast S1x128 b h2) h3) : FVec Ideal S1024x128 .f32) (ix2 p q)
      = (∑ u : Fin 128, acc (ix2 p u) * w (ix2 u q)) + b (ix1 q) := by
  refine (addf_apply _ _ _).trans ?_
  rw [mmB, broadcastTo_1b_ab_apply, shapeCast_a_1a_apply]
  rfl

/-- The zero block: every entry is zero. -/
theorem pay1_0 (j : S1024x128.Idx) : k0_pay1 (F := Ideal) j = 0 := by
  unfold k0_pay1
  rw [shapeCast_self]
  exact Ideal.ofBits_zero_f32

/-- One accumulation step at (p, q): the accumulator's entry plus the block product's entry
    (rounding to bf16 is the identity at the ideal values). -/
theorem pay2_0 (a : Vec Ideal S1024x2048 .f32) (y : Vec Ideal S2048x128 .f32) (acc : Vec Ideal S1024x128 .f32) (p : Fin 1024) (q : Fin 128) :
    k0_pay2 (F := Ideal) a y acc (ix2 p q) = acc (ix2 p q) + ∑ k : Fin 2048, a (ix2 p k) * y (ix2 k q) := by
  unfold k0_pay2
  rw [shapeCast_self]
  refine (addf_apply _ _ _).trans ?_
  refine congrArg (acc (ix2 p q) + ·) ?_
  exact mmA _ _ p q

/-- The last step at (p, q): z * logistic z with z the accumulator's row times the weight's column plus the bias. -/
theorem pay3_0 (acc : Vec Ideal S1024x128 .f32) (w : Vec Ideal S128x128 .f32) (b : Vec Ideal S128 .f32) (p : Fin 1024) (q : Fin 128) :
    k0_pay3 (F := Ideal) acc w b (ix2 p q) = ((∑ u : Fin 128, acc (ix2 p u) * w (ix2 u q)) + b (ix1 q)) * Ideal.logistic ((∑ u : Fin 128, acc (ix2 p u) * w (ix2 u q)) + b (ix1 q)) := by
  unfold k0_pay3
  refine (mulf_apply _ _ _).trans ?_
  rw [logistic_apply, affine_apply]

/-- The zero block: every entry is zero. -/
theorem pay1_1 (j : S1024x128.Idx) : k1_pay1 (F := Ideal) j = 0 := by
  unfold k1_pay1
  rw [shapeCast_self]
  exact Ideal.ofBits_zero_f32

/-- One accumulation step at (p, q): the accumulator's entry plus the block product's entry
    (rounding to bf16 is the identity at the ideal values). -/
theorem pay2_1 (a : Vec Ideal S1024x2048 .f32) (y : Vec Ideal S2048x128 .f32) (acc : Vec Ideal S1024x128 .f32) (p : Fin 1024) (q : Fin 128) :
    k1_pay2 (F := Ideal) a y acc (ix2 p q) = acc (ix2 p q) + ∑ k : Fin 2048, a (ix2 p k) * y (ix2 k q) := by
  unfold k1_pay2
  rw [shapeCast_self]
  rw [shapeCast_self]
  refine (addf_apply _ _ _).trans ?_
  refine congrArg (acc (ix2 p q) + ·) ?_
  exact mmA _ _ p q

/-- The last step at (p, q): z * logistic z with z the accumulator's row times the weight's column plus the bias. -/
theorem pay3_1 (acc : Vec Ideal S1024x128 .f32) (w : Vec Ideal S128x128 .f32) (b : Vec Ideal S128 .f32) (p : Fin 1024) (q : Fin 128) :
    k1_pay3 (F := Ideal) acc w b (ix2 p q) = ((∑ u : Fin 128, acc (ix2 p u) * w (ix2 u q)) + b (ix1 q)) * Ideal.logistic ((∑ u : Fin 128, acc (ix2 p u) * w (ix2 u q)) + b (ix1 q)) := by
  unfold k1_pay3
  refine (mulf_apply _ _ _).trans ?_
  rw [logistic_apply, affine_apply]

end Cert.KernelIdeal.PayValue
-- ==== Proof.HopSpec.lean ====
import Idealize.ShloMosaic.PureOps.Ideal
import Idealize.ShloMosaic.PureOps.Ideal.Laws
import Idealize.ShloMosaic.Lib.ValueIdx
import Mathlib.Algebra.BigOperators.Fin
import Mathlib.Logic.Equiv.Fin.Basic

/-! The function one hop computes, as sums over extended reals: every row of `adj` against every column of `y`,
then against `W`, plus the bias, through `z * logistic z`; and the regrouping of a sum over 16384 columns into 8
blocks of 2048. -/

noncomputable section

open Idealize.ShloMosaic Idealize.ShloMosaic.ValueIdx
open scoped BigOperators

namespace Cert.Hop

abbrev SNN : Shape := ⟨2, ![16384, 16384]⟩
abbrev SNU : Shape := ⟨2, ![16384, 128]⟩
abbrev SUU : Shape := ⟨2, ![128, 128]⟩
abbrev SU : Shape := ⟨1, ![128]⟩

/-- row r of adj against column u of y -/
def agg (adj : FVec Ideal SNN .f32) (y : FVec Ideal SNU .f32) (r : Fin 16384) (u : Fin 128) : EReal :=
  ∑ k : Fin 16384, adj (ix2 r k) * y (ix2 k u)

/-- the row `a` against column q of W, plus the bias at q -/
def lin (a : Fin 128 → EReal) (W : FVec Ideal SUU .f32) (b : FVec Ideal SU .f32) (q : Fin 128) : EReal :=
  (∑ u : Fin 128, a u * W (ix2 u q)) + b (ix1 q)

/-- z times the logistic of z -/
def swish (z : EReal) : EReal := z * Ideal.logistic z

/-- one hop: aggregate, linear layer, activation -/
def hop (adj : FVec Ideal SNN .f32) (y : FVec Ideal SNU .f32) (W : FVec Ideal SUU .f32) (b : FVec Ideal SU .f32) :
    FVec Ideal SNU .f32 :=
  fun i => swish (lin (agg adj y (i 0)) W b (i 1))

theorem hop_apply (adj : FVec Ideal SNN .f32) (y : FVec Ideal SNU .f32) (W : FVec Ideal SUU .f32)
    (b : FVec Ideal SU .f32) (r : Fin 16384) (q : Fin 128) :
    hop adj y W b (ix2 r q) = swish (lin (agg adj y r) W b q) := rfl

/-- column k = kb * 2048 + kk -/
def blk (kb : Fin 8) (kk : Fin 2048) : Fin 16384 := ⟨kb.val * 2048 + kk.val, by omega⟩

/-- A sum over the 16384 columns is the sum over the 8 blocks of the sums over each block's 2048 columns. -/
theorem sum_blocks (f : Fin 16384 → EReal) :
    ∑ k : Fin 16384, f k = ∑ kb : Fin 8, ∑ kk : Fin 2048, f (blk kb kk) := by
  rw [← Fintype.sum_prod_type' (f := fun kb kk => f (blk kb kk))]
  rw [← Equiv.sum_comp (finProdFinEquiv : Fin 8 × Fin 2048 ≃ Fin (8 * 2048)) (fun k => f k)]
  refine Finset.sum_congr rfl fun p _ => ?_
  refine congrArg f (Fin.ext ?_)
  show p.2.val + 2048 * p.1.val = p.1.val * 2048 + p.2.val
  omega

end Cert.Hop

end
-- ==== Proof.KI.Acc.lean ====
/- What the two hops' bodies leave in the accumulator and in the output's buffer, case by case, as the payloads of
   the values they read; and the accumulation over the grid in closed form at the ideal values. -/
import proofs.«178023_j43181601194858_1_alg».proof.Proof.KI.R0Frame
import proofs.«178023_j43181601194858_1_alg».proof.Proof.KI.R1Frame
import proofs.«178023_j43181601194858_1_alg».proof.Proof.PayValue
import proofs.«178023_j43181601194858_1_alg».proof.Proof.HopSpec
import proofs.«178023_j43181601194858_1_alg».proof.Proof.KI.Blocks
import Idealize.ShloMosaic.Lib.Pipeline.Value
import Idealize.ShloMosaic.Lib.Tactic

set_option maxRecDepth 16384

noncomputable section

namespace Cert.KernelIdeal.HopVal

open Cert.KernelIdeal Cert.KernelIdeal.Gen Cert.KernelIdeal.Hop
open Idealize.ShloMosaic Idealize.ShloMosaic.TcCoe Idealize.ShloMosaic.Tactic Idealize.ShloMosaic.ValueIdx
open Idealize.SL.Sem
open scoped BigOperators
open Idealize.ShloMosaic.Pipeline (Dat Cfg Window)

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-! ## Hop 0: what each control case leaves, as the payloads of the values it read -/

/-- The 2048 rows of the whole second operand the body loads at its row offset (column block times 2048). -/
def yblk0 (i : grid0.Coords) (x1 : Vec F S16384x128 .f32) : Vec F S2048x128 .f32 :=
  View.ld x1 (Rect.unit (s := S16384x128) (k0_off1 i) S2048x128.size (Gen.k0_off1_inb i))

/-- Row kk of that load is row (column block) * 2048 + kk of the operand. -/
theorem yblk0_apply (i : grid0.Coords) (x1 : Vec F S16384x128 .f32) (kk : Fin 2048) (q : Fin 128)
    (h : (i 1).val * 2048 + kk.val < 16384) :
    yblk0 i x1 (ix2 kk q) = x1 (ix2 ⟨(i 1).val * 2048 + kk.val, h⟩ q) := by
  unfold yblk0
  show x1 _ = x1 _
  congr 1
  funext a
  apply Fin.ext
  have e := k0_off1_eq i
  match a with
  | ⟨0, _⟩ =>
    show (k0_off1 i) 0 + 1 * kk.val = (i 1).val * 2048 + kk.val
    rw [e]
    show 2048 * (i 1).val + 1 * kk.val = _
    omega
  | ⟨1, _⟩ =>
    show (k0_off1 i) 1 + 1 * q.val = q.val
    rw [e]
    show 0 + 1 * q.val = _
    omega

/-- Column block 0: the accumulator leaves at the zero block plus the block product. -/
theorem sout0_A_eq (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : cond0_0 i) (hc1 : ¬cond0_1 i) (x0 : Vec F S1024x2048 .f32) (x1 : Vec F S16384x128 .f32) (x2 : Vec F S128x128 .f32) (x3 : Vec F S128 .f32) :
    sout0_A c i arg2 harg2 arg3 harg3 arg4 harg4 arg5 harg5 arg6 harg6 arg7 harg7 hc0 hc1 x0 x1 x2 x3 = k0_pay2 x0 (yblk0 i x1) k0_pay1 := by
  unfold sout0_A
  rw [View.read_writes_eq_canon _ _ _ (scover0_A c i arg2 harg2 arg3 harg3 arg4 harg4 arg5 harg5 arg6 harg6 arg7 harg7 hc0 hc1 x0 x1 x2 x3)]
  unfold kernelRun0_A
  dsimp only
  sl_unfold_words
  rw [View.canon_cons_unit_zero (S := S1024x128) hz2, View.readCov_unit_zero (S := S1024x128) _ hz2]
  simp only [View.readAt_eq_ld, harg2.read_unread, harg3.read_unread, View.ld_unit_zero (S := S1024x2048) hz2]
  rfl

/-- Column blocks 1 to 6: the accumulator leaves at what it held plus the block product. -/
theorem sout0_B_eq (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : ¬cond0_1 i) (x0 : Vec F S1024x2048 .f32) (x1 : Vec F S16384x128 .f32) (x2 : Vec F S128x128 .f32) (x3 : Vec F S128 .f32) (xs0 : Vec F S1024x128 .f32) :
    sout0_B c i arg2 harg2 arg3 harg3 arg4 harg4 arg5 harg5 arg6 harg6 arg7 harg7 hc0 hc1 x0 x1 x2 x3 xs0 = k0_pay2 x0 (yblk0 i x1) xs0 := by
  unfold sout0_B
  rw [View.read_writes_eq_canon _ _ _ (scover0_B c i arg2 harg2 arg3 harg3 arg4 harg4 arg5 harg5 arg6 harg6 arg7 harg7 hc0 hc1 x0 x1 x2 x3 xs0)]
  unfold kernelRun0_B
  dsimp only
  sl_unfold_words
  rw [View.canon_unit_zero (S := S1024x128) hz2]
  simp only [View.readAt_eq_ld, harg2.read_unread, harg3.read_unread, harg7.read_unread, View.ld_unit_zero (S := S1024x2048) hz2, View.ld_unit_zero (S := S1024x128) hz2]
  rfl

/-- Column block 7: the accumulator leaves at what it held plus the block product. -/
theorem sout0_C_eq (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : cond0_1 i) (x0 : Vec F S1024x2048 .f32) (x1 : Vec F S16384x128 .f32) (x2 : Vec F S128x128 .f32) (x3 : Vec F S128 .f32) (xs0 : Vec F S1024x128 .f32) :
    sout0_C c i arg2 harg2 arg3 harg3 arg4 harg4 arg5 harg5 arg6 harg6 arg7 harg7 hc0 hc1 x0 x1 x2 x3 xs0 = k0_pay2 x0 (yblk0 i x1) xs0 := by
  unfold sout0_C
  rw [View.read_writes_eq_canon _ _ _ (scover0_C c i arg2 harg2 arg3 harg3 arg4 harg4 arg5 harg5 arg6 harg6 arg7 harg7 hc0 hc1 x0 x1 x2 x3 xs0)]
  unfold kernelRun0_C
  dsimp only
  sl_unfold_words
  rw [View.canon_unit_zero (S := S1024x128) hz2]
  simp only [View.readAt_eq_ld, harg2.read_unread, harg3.read_unread, harg7.read_unread, View.ld_unit_zero (S := S1024x2048) hz2, View.ld_unit_zero (S := S1024x128) hz2]
  rfl

/-- Column block 7: the output's buffer leaves at the finished rows of the accumulator it has just updated. -/
theorem out0_C_eq (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : cond0_1 i) (x0 : Vec F S1024x2048 .f32) (x1 : Vec F S16384x128 .f32) (x2 : Vec F S128x128 .f32) (x3 : Vec F S128 .f32) (xs0 : Vec F S1024x128 .f32) :
    out0_C c i arg2 harg2 arg3 harg3 arg4 harg4 arg5 harg5 arg6 harg6 arg7 harg7 hc0 hc1 x0 x1 x2 x3 xs0 = k0_pay3 (k0_pay2 x0 (yblk0 i x1) xs0) x2 x3 := by
  unfold out0_C
  rw [View.read_writes_eq_canon _ _ _ (cover0_C c i arg2 harg2 arg3 harg3 arg4 harg4 arg5 harg5 arg6 harg6 arg7 harg7 hc0 hc1 x0 x1 x2 x3 xs0)]
  unfold kernelRun0_C
  dsimp only
  sl_unfold_words
  rw [View.canon_unit_zero (S := S1024x128) hz2, View.readCov_unit_zero (S := S1024x128) _ hz2]
  simp only [View.readAt_eq_ld, harg2.read_unread, harg3.read_unread, harg4.read_unread, harg5.read_unread, harg7.read_unread, View.ld_unit_zero (S := S1024x2048) hz2, View.ld_unit_zero (S := S1024x128) hz2, View.ld_unit_zero (S := S128x128) hz2, View.ld_unit_zero (S := S128) hz1]
  rfl

/-! ## Hop 1: what each control case leaves, as the payloads of the values it read -/

/-- The 2048 rows of the whole second operand the body loads at its row offset (column block times 2048). -/
def yblk1 (i : grid1.Coords) (x1 : Vec F S16384x128 .f32) : Vec F S2048x128 .f32 :=
  View.ld x1 (Rect.unit (s := S16384x128) (k1_off1 i) S2048x128.size (Gen.k1_off1_inb i))

/-- Row kk of that load is row (column block) * 2048 + kk of the operand. -/
theorem yblk1_apply (i : grid1.Coords) (x1 : Vec F S16384x128 .f32) (kk : Fin 2048) (q : Fin 128)
    (h : (i 1).val * 2048 + kk.val < 16384) :
    yblk1 i x1 (ix2 kk q) = x1 (ix2 ⟨(i 1).val * 2048 + kk.val, h⟩ q) := by
  unfold yblk1
  show x1 _ = x1 _
  congr 1
  funext a
  apply Fin.ext
  have e := k1_off1_eq i
  match a with
  | ⟨0, _⟩ =>
    show (k1_off1 i) 0 + 1 * kk.val = (i 1).val * 2048 + kk.val
    rw [e]
    show 2048 * (i 1).val + 1 * kk.val = _
    omega
  | ⟨1, _⟩ =>
    show (k1_off1 i) 1 + 1 * q.val = q.val
    rw [e]
    show 0 + 1 * q.val = _
    omega

/-- Column block 0: the accumulator leaves at the zero block plus the block product. -/
theorem sout1_A_eq (c : Dev nD) (i : grid1.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i) (x0 : Vec F S1024x2048 .f32) (x1 : Vec F S16384x128 .f32) (x2 : Vec F S128x128 .f32) (x3 : Vec F S128 .f32) :
    sout1_A c i arg2 harg2 arg3 harg3 arg4 harg4 arg5 harg5 arg6 harg6 arg7 harg7 hc0 hc1 x0 x1 x2 x3 = k1_pay2 x0 (yblk1 i x1) k1_pay1 := by
  unfold sout1_A
  rw [View.read_writes_eq_canon _ _ _ (scover1_A c i arg2 harg2 arg3 harg3 arg4 harg4 arg5 harg5 arg6 harg6 arg7 harg7 hc0 hc1 x0 x1 x2 x3)]
  unfold kernelRun1_A
  dsimp only
  sl_unfold_words
  rw [View.canon_cons_unit_zero (S := S1024x128) hz2, View.readCov_unit_zero (S := S1024x128) _ hz2]
  simp only [View.readAt_eq_ld, harg2.read_unread, harg3.read_unread, View.ld_unit_zero (S := S1024x2048) hz2]
  rfl

/-- Column blocks 1 to 6: the accumulator leaves at what it held plus the block product. -/
theorem sout1_B_eq (c : Dev nD) (i : grid1.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i) (x0 : Vec F S1024x2048 .f32) (x1 : Vec F S16384x128 .f32) (x2 : Vec F S128x128 .f32) (x3 : Vec F S128 .f32) (xs0 : Vec F S1024x128 .f32) :
    sout1_B c i arg2 harg2 arg3 harg3 arg4 harg4 arg5 harg5 arg6 harg6 arg7 harg7 hc0 hc1 x0 x1 x2 x3 xs0 = k1_pay2 x0 (yblk1 i x1) xs0 := by
  unfold sout1_B
  rw [View.read_writes_eq_canon _ _ _ (scover1_B c i arg2 harg2 arg3 harg3 arg4 harg4 arg5 harg5 arg6 harg6 arg7 harg7 hc0 hc1 x0 x1 x2 x3 xs0)]
  unfold kernelRun1_B
  dsimp only
  sl_unfold_words
  rw [View.canon_unit_zero (S := S1024x128) hz2]
  simp only [View.readAt_eq_ld, harg2.read_unread, harg3.read_unread, harg7.read_unread, View.ld_unit_zero (S := S1024x2048) hz2, View.ld_unit_zero (S := S1024x128) hz2]
  rfl

/-- Column block 7: the accumulator leaves at what it held plus the block product. -/
theorem sout1_C_eq (c : Dev nD) (i : grid1.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i) (x0 : Vec F S1024x2048 .f32) (x1 : Vec F S16384x128 .f32) (x2 : Vec F S128x128 .f32) (x3 : Vec F S128 .f32) (xs0 : Vec F S1024x128 .f32) :
    sout1_C c i arg2 harg2 arg3 harg3 arg4 harg4 arg5 harg5 arg6 harg6 arg7 harg7 hc0 hc1 x0 x1 x2 x3 xs0 = k1_pay2 x0 (yblk1 i x1) xs0 := by
  unfold sout1_C
  rw [View.read_writes_eq_canon _ _ _ (scover1_C c i arg2 harg2 arg3 harg3 arg4 harg4 arg5 harg5 arg6 harg6 arg7 harg7 hc0 hc1 x0 x1 x2 x3 xs0)]
  unfold kernelRun1_C
  dsimp only
  sl_unfold_words
  rw [View.canon_unit_zero (S := S1024x128) hz2]
  simp only [View.readAt_eq_ld, harg2.read_unread, harg3.read_unread, harg7.read_unread, View.ld_unit_zero (S := S1024x2048) hz2, View.ld_unit_zero (S := S1024x128) hz2]
  rfl

/-- Column block 7: the output's buffer leaves at the finished rows of the accumulator it has just updated. -/
theorem out1_C_eq (c : Dev nD) (i : grid1.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i) (x0 : Vec F S1024x2048 .f32) (x1 : Vec F S16384x128 .f32) (x2 : Vec F S128x128 .f32) (x3 : Vec F S128 .f32) (xs0 : Vec F S1024x128 .f32) :
    out1_C c i arg2 harg2 arg3 harg3 arg4 harg4 arg5 harg5 arg6 harg6 arg7 harg7 hc0 hc1 x0 x1 x2 x3 xs0 = k1_pay3 (k1_pay2 x0 (yblk1 i x1) xs0) x2 x3 := by
  unfold out1_C
  rw [View.read_writes_eq_canon _ _ _ (cover1_C c i arg2 harg2 arg3 harg3 arg4 harg4 arg5 harg5 arg6 harg6 arg7 harg7 hc0 hc1 x0 x1 x2 x3 xs0)]
  unfold kernelRun1_C
  dsimp only
  sl_unfold_words
  rw [View.canon_unit_zero (S := S1024x128) hz2, View.readCov_unit_zero (S := S1024x128) _ hz2]
  simp only [View.readAt_eq_ld, harg2.read_unread, harg3.read_unread, harg4.read_unread, harg5.read_unread, harg7.read_unread, View.ld_unit_zero (S := S1024x2048) hz2, View.ld_unit_zero (S := S1024x128) hz2, View.ld_unit_zero (S := S128x128) hz2, View.ld_unit_zero (S := S128) hz1]
  rfl

/-! ## Sums over the column blocks done so far -/

/-- The sum of the terms up to block j is the sum of those before j plus the term at j. -/
theorem sum_le_eq {M : Type*} [AddCommMonoid M] (T : Fin 8 → M) (j : ℕ) (hj : j < 8) :
    (∑ k : Fin 8, if k.val ≤ j then T k else 0) = (∑ k : Fin 8, if k.val < j then T k else 0) + T ⟨j, hj⟩ := by
  have e : ∀ k : Fin 8, (if k.val ≤ j then T k else 0)
      = (if k.val < j then T k else 0) + (if k = ⟨j, hj⟩ then T k else 0) := by
    intro k
    by_cases h1 : k.val < j
    · have h2 : k ≠ ⟨j, hj⟩ := fun h => by rw [h] at h1; exact lt_irrefl _ h1
      rw [if_pos (le_of_lt h1), if_pos h1, if_neg h2, add_zero]
    · by_cases h2 : k = ⟨j, hj⟩
      · subst h2
        rw [if_pos (le_refl _), if_neg h1, if_pos rfl, zero_add]
      · have h3 : ¬ k.val ≤ j := fun h => h2 (Fin.ext (by show k.val = j; omega))
        rw [if_neg h3, if_neg h1, if_neg h2, add_zero]
  rw [Finset.sum_congr rfl (fun k _ => e k), Finset.sum_add_distrib, Finset.sum_ite_eq' Finset.univ (⟨j, hj⟩ : Fin 8) T,
    if_pos (Finset.mem_univ _)]

/-- The components of a pair known by an equation. -/
theorem snd_of_eq {α β : Type} {x : α × β} {a : α} {b : β} (h : x = (a, b)) : x.2 = b := by rw [h]
theorem fst_of_eq {α β : Type} {x : α × β} {a : α} {b : β} (h : x = (a, b)) : x.1 = a := by rw [h]

/-! ## Hop 0: the accumulator and the output's buffer after each point, from the point before (any float values) -/

section Any0
variable (V : (c : Dev nD) → (b : Ref sig .tc) → Buf (Elt F) ((c : Thread nD τ).loc b))

/-- The four input blocks at point t, at their literal shapes. -/
def blkA0 (c : Dev nD) (t : Fin cfg0.N) : Vec F S1024x2048 .f32 := iblk0 V c 0 t
def blkY0 (c : Dev nD) (t : Fin cfg0.N) : Vec F S16384x128 .f32 := iblk0 V c 1 t
def blkW0 (c : Dev nD) (t : Fin cfg0.N) : Vec F S128x128 .f32 := iblk0 V c 2 t
def blkB0 (c : Dev nD) (t : Fin cfg0.N) : Vec F S128 .f32 := iblk0 V c 3 t

theorem blkA0_apply (c : Dev nD) (t : Fin cfg0.N) (p : Fin 1024) (kk : Fin 2048) :
    blkA0 V c t (ix2 p kk) = (V c main_arg1 : S16384x16384.Idx → Elt F .f32) (ix2 ⟨(t.val / 8) * 1024 + p.val, row0_lt t p⟩ ⟨(t.val % 8) * 2048 + kk.val, col0_lt t kk⟩) :=
  iblk0_adj V c t p kk
theorem blkY0_apply (c : Dev nD) (t : Fin cfg0.N) (k : Fin 16384) (q : Fin 128) :
    blkY0 V c t (ix2 k q) = (V c main_arg0 : S16384x128.Idx → Elt F .f32) (ix2 k q) :=
  iblk0_y V c t k q
theorem blkW0_apply (c : Dev nD) (t : Fin cfg0.N) (u q : Fin 128) :
    blkW0 V c t (ix2 u q) = (V c main_arg2 : S128x128.Idx → Elt F .f32) (ix2 u q) :=
  iblk0_w V c t u q
theorem blkB0_apply (c : Dev nD) (t : Fin cfg0.N) (q : Fin 128) :
    blkB0 V c t (ix1 q) = (V c main_arg3 : S128.Idx → Elt F .f32) (ix1 q) :=
  iblk0_b V c t q

theorem prev0 (t : Fin cfg0.N) : t.val - 1 < cfg0.N := Nat.lt_of_le_of_lt (Nat.sub_le _ _) t.isLt

/-- The three case equations of the accumulation, over those blocks. -/
theorem outsAt0_A' (c : Dev nD) (t : Fin cfg0.N) (h0 : t.val % 8 = 0) (h1 : ¬t.val % 8 = 7) :
    outsAt0 V c t.val t.isLt = (out0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (blkA0 V c t) (blkY0 V c t) (blkW0 V c t) (blkB0 V c t), sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (blkA0 V c t) (blkY0 V c t) (blkW0 V c t) (blkB0 V c t)) :=
  outsAt0_A V c t h0 h1
theorem outsAt0_B' (c : Dev nD) (t : Fin cfg0.N) (h0 : ¬t.val % 8 = 0) (h1 : ¬t.val % 8 = 7) :
    outsAt0 V c t.val t.isLt = (out0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (blkA0 V c t) (blkY0 V c t) (blkW0 V c t) (blkB0 V c t) (outsAt0 V c (t.val - 1) (prev0 t)).2, sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (blkA0 V c t) (blkY0 V c t) (blkW0 V c t) (blkB0 V c t) (outsAt0 V c (t.val - 1) (prev0 t)).2) :=
  outsAt0_B V c t h0 h1
theorem outsAt0_C' (c : Dev nD) (t : Fin cfg0.N) (h0 : ¬t.val % 8 = 0) (h1 : t.val % 8 = 7) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (blkA0 V c t) (blkY0 V c t) (blkW0 V c t) (blkB0 V c t) (outsAt0 V c (t.val - 1) (prev0 t)).2, sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (blkA0 V c t) (blkY0 V c t) (blkW0 V c t) (blkB0 V c t) (outsAt0 V c (t.val - 1) (prev0 t)).2) :=
  outsAt0_C V c t h0 h1

/-- At column block 0 the accumulator leaves at the zero block plus the point's block product. -/
theorem snd0_first (c : Dev nD) (t : Fin cfg0.N) (h0 : t.val % 8 = 0) :
    (outsAt0 V c t.val t.isLt).2 = k0_pay2 (blkA0 V c t) (yblk0 (grid0.coords t) (blkY0 V c t)) k0_pay1 :=
  have h1 : ¬t.val % 8 = 7 := by omega
  (snd_of_eq (outsAt0_A' V c t h0 h1)).trans
    (sout0_A_eq c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (blkA0 V c t) (blkY0 V c t) (blkW0 V c t) (blkB0 V c t))

/-- At a later column block it leaves at what the point before left plus the point's block product. -/
theorem snd0_next (c : Dev nD) (t : Fin cfg0.N) (h0 : ¬t.val % 8 = 0) :
    (outsAt0 V c t.val t.isLt).2
      = k0_pay2 (blkA0 V c t) (yblk0 (grid0.coords t) (blkY0 V c t)) (outsAt0 V c (t.val - 1) (prev0 t)).2 := by
  by_cases h1 : t.val % 8 = 7
  · exact (snd_of_eq (outsAt0_C' V c t h0 h1)).trans
      (sout0_C_eq c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (blkA0 V c t) (blkY0 V c t) (blkW0 V c t) (blkB0 V c t) (outsAt0 V c (t.val - 1) (prev0 t)).2)
  · exact (snd_of_eq (outsAt0_B' V c t h0 h1)).trans
      (sout0_B_eq c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (blkA0 V c t) (blkY0 V c t) (blkW0 V c t) (blkB0 V c t) (outsAt0 V c (t.val - 1) (prev0 t)).2)

/-- At column block 7 the output's buffer leaves at the finished rows of the accumulator as the point leaves it. -/
theorem fst0_last (c : Dev nD) (t : Fin cfg0.N) (h7 : t.val % 8 = 7) :
    (outsAt0 V c t.val t.isLt).1 = k0_pay3 (outsAt0 V c t.val t.isLt).2 (blkW0 V c t) (blkB0 V c t) := by
  have h0 : ¬t.val % 8 = 0 := by omega
  refine ((fst_of_eq (outsAt0_C' V c t h0 h7)).trans
    (out0_C_eq c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h7) (blkA0 V c t) (blkY0 V c t) (blkW0 V c t) (blkB0 V c t) (outsAt0 V c (t.val - 1) (prev0 t)).2)).trans ?_
  rw [snd0_next V c t h0]

end Any0

/-! ## Hop 0 at the ideal values: the accumulation in closed form -/

section Ideal0
variable (V : (c : Dev nD) → (b : Ref sig .tc) → Buf (Elt Ideal) ((c : Thread nD τ).loc b))

/-- The hop's four arrays as it finds them. -/
abbrev adj0 (c : Dev nD) : FVec Ideal Cert.Hop.SNN .f32 := V c main_arg1
abbrev feat0 (c : Dev nD) : FVec Ideal Cert.Hop.SNU .f32 := V c main_arg0
abbrev wt0 (c : Dev nD) : FVec Ideal Cert.Hop.SUU .f32 := V c main_arg2
abbrev bias0 (c : Dev nD) : FVec Ideal Cert.Hop.SU .f32 := V c main_arg3

/-- The point's column block is its number modulo 8. -/
theorem coord0_1 : ∀ t : Fin cfg0.N, ((grid0.coords t) 1).val = t.val % 8 :=
  (by decide +kernel : ∀ t : Fin grid0.N, ((grid0.coords t) 1).val = t.val % 8)

/-- Row r of the matrix against column q of the features, over the 2048 columns of column block kb. -/
def part0 (c : Dev nD) (r : Fin 16384) (q : Fin 128) (kb : Fin 8) : EReal :=
  ∑ kk : Fin 2048, adj0 V c (ix2 r (Cert.Hop.blk kb kk)) * feat0 V c (ix2 (Cert.Hop.blk kb kk) q)

/-- The point's block product at (p, q) is that partial sum for the point's row and column block. -/
theorem point0 (c : Dev nD) (t : Fin cfg0.N) (p : Fin 1024) (q : Fin 128) (kb : Fin 8) (hkb : kb.val = t.val % 8) :
    (∑ kk : Fin 2048, blkA0 V c t (ix2 p kk) * yblk0 (grid0.coords t) (blkY0 V c t) (ix2 kk q))
      = part0 V c ⟨(t.val / 8) * 1024 + p.val, row0_lt t p⟩ q kb := by
  unfold part0
  refine Finset.sum_congr rfl fun kk _ => ?_
  have hc : ((grid0.coords t) 1).val * 2048 + kk.val < 16384 := by rw [coord0_1 t]; exact col0_lt t kk
  have e1 : (⟨(t.val % 8) * 2048 + kk.val, col0_lt t kk⟩ : Fin 16384) = Cert.Hop.blk kb kk :=
    Fin.ext (by show (t.val % 8) * 2048 + kk.val = kb.val * 2048 + kk.val; rw [hkb])
  have e2 : (⟨((grid0.coords t) 1).val * 2048 + kk.val, hc⟩ : Fin 16384) = Cert.Hop.blk kb kk :=
    Fin.ext (by show ((grid0.coords t) 1).val * 2048 + kk.val = kb.val * 2048 + kk.val; rw [coord0_1 t, hkb])
  exact congrArg₂ (· * ·)
    ((blkA0_apply V c t p kk).trans (congrArg (fun k => adj0 V c (ix2 ⟨(t.val / 8) * 1024 + p.val, row0_lt t p⟩ k)) e1))
    ((yblk0_apply (grid0.coords t) (blkY0 V c t) kk q hc).trans
      ((blkY0_apply V c t _ q).trans (congrArg (fun k => feat0 V c (ix2 k q)) e2)))

/-- One accumulation step from the zero block, at (p, q): the block product alone. -/
theorem pay2_first0 (a : Vec Ideal S1024x2048 .f32) (y : Vec Ideal S2048x128 .f32) (p : Fin 1024) (q : Fin 128) :
    k0_pay2 (F := Ideal) a y (k0_pay1 (F := Ideal)) (ix2 p q) = ∑ k : Fin 2048, a (ix2 p k) * y (ix2 k q) := by
  refine (PayValue.pay2_0 a y (k0_pay1 (F := Ideal)) p q).trans ?_
  rw [PayValue.pay1_0]
  exact zero_add _

/-- The accumulator after point n, at (p, q): the partial sums of the column blocks done so far in the point's row block. -/
def closed0 (c : Dev nD) (n : ℕ) (hn : n < cfg0.N) (p : Fin 1024) (q : Fin 128) : EReal :=
  ∑ kb : Fin 8, if kb.val ≤ n % 8 then part0 V c ⟨(n / 8) * 1024 + p.val, row0_lt ⟨n, hn⟩ p⟩ q kb else 0

theorem acc0_first (c : Dev nD) (t : Fin cfg0.N) (h0 : t.val % 8 = 0) (p : Fin 1024) (q : Fin 128) :
    (outsAt0 V c t.val t.isLt).2 (ix2 p q) = closed0 V c t.val t.isLt p q := by
  have hj : t.val % 8 < 8 := Nat.mod_lt _ (by decide)
  refine (congrFun (snd0_first V c t h0) (ix2 p q)).trans ?_
  refine (pay2_first0 _ _ p q).trans ?_
  refine (point0 V c t p q ⟨t.val % 8, hj⟩ rfl).trans ?_
  unfold closed0
  have hzero : (∑ k : Fin 8, if k.val < t.val % 8 then part0 V c ⟨(t.val / 8) * 1024 + p.val, row0_lt ⟨t.val, t.isLt⟩ p⟩ q k else 0) = 0 :=
    Finset.sum_eq_zero fun k _ => if_neg (by rw [h0]; exact Nat.not_lt_zero _)
  rw [sum_le_eq _ (t.val % 8) hj, hzero, zero_add]

theorem acc0_next (c : Dev nD) (t : Fin cfg0.N) (h0 : ¬t.val % 8 = 0) (p : Fin 1024) (q : Fin 128)
    (ih : ∀ (p : Fin 1024) (q : Fin 128), (outsAt0 V c (t.val - 1) (prev0 t)).2 (ix2 p q) = closed0 V c (t.val - 1) (prev0 t) p q) :
    (outsAt0 V c t.val t.isLt).2 (ix2 p q) = closed0 V c t.val t.isLt p q := by
  have hj : t.val % 8 < 8 := Nat.mod_lt _ (by decide)
  refine (congrFun (snd0_next V c t h0) (ix2 p q)).trans ?_
  refine (PayValue.pay2_0 _ _ _ p q).trans ?_
  rw [ih p q, point0 V c t p q ⟨t.val % 8, hj⟩ rfl]
  unfold closed0
  rw [sum_le_eq _ (t.val % 8) hj]
  refine congrArg (· + _) (Finset.sum_congr rfl fun k _ => ?_)
  have hrow : (⟨((t.val - 1) / 8) * 1024 + p.val, row0_lt ⟨t.val - 1, prev0 t⟩ p⟩ : Fin 16384)
      = ⟨(t.val / 8) * 1024 + p.val, row0_lt ⟨t.val, t.isLt⟩ p⟩ :=
    Fin.ext (by show ((t.val - 1) / 8) * 1024 + p.val = (t.val / 8) * 1024 + p.val; omega)
  rw [hrow]
  by_cases hk : k.val < t.val % 8
  · have hk' : k.val ≤ (t.val - 1) % 8 := by omega
    rw [if_pos hk, if_pos hk']
  · have hk' : ¬k.val ≤ (t.val - 1) % 8 := by omega
    rw [if_neg hk, if_neg hk']

/-- THE ACCUMULATION in closed form, by induction on the point. -/
theorem acc0_nat (c : Dev nD) : ∀ (n : ℕ) (hn : n < cfg0.N) (p : Fin 1024) (q : Fin 128),
    (outsAt0 V c n hn).2 (ix2 p q) = closed0 V c n hn p q := by
  intro n
  induction n with
  | zero => intro hn p q; exact acc0_first V c ⟨0, hn⟩ (Nat.zero_mod _) p q
  | succ n ih =>
    intro hn p q
    by_cases h0 : (n + 1) % 8 = 0
    · exact acc0_first V c ⟨n + 1, hn⟩ h0 p q
    · exact acc0_next V c ⟨n + 1, hn⟩ h0 p q (fun p' q' => ih (Nat.lt_of_succ_lt hn) p' q')

/-- The accumulator after point t at (p, q): the sum, over the column blocks up to the point's, of the row's products. -/
theorem acc0 (c : Dev nD) (t : Fin cfg0.N) (p : Fin 1024) (q : Fin 128) :
    (outsAt0 V c t.val t.isLt).2 (ix2 p q)
      = ∑ kb : Fin 8, if kb.val ≤ t.val % 8 then
          ∑ kk : Fin 2048, adj0 V c (ix2 ⟨(t.val / 8) * 1024 + p.val, row0_lt t p⟩ (Cert.Hop.blk kb kk))
            * feat0 V c (ix2 (Cert.Hop.blk kb kk) q)
        else 0 :=
  acc0_nat V c t.val t.isLt p q

/-- At column block 7 the output's buffer holds the hop's value on the point's rows. -/
theorem out0 (c : Dev nD) (t : Fin cfg0.N) (h7 : t.val % 8 = 7) (p : Fin 1024) (q : Fin 128) :
    (outsAt0 V c t.val t.isLt).1 (ix2 p q)
      = Cert.Hop.hop (V c main_arg1) (V c main_arg0) (V c main_arg2) (V c main_arg3) (ix2 ⟨(t.val / 8) * 1024 + p.val, row0_lt t p⟩ q) := by
  refine (congrFun (fst0_last V c t h7) (ix2 p q)).trans ?_
  refine (PayValue.pay3_0 _ _ _ p q).trans ?_
  have hz : ∀ u : Fin 128, (outsAt0 V c t.val t.isLt).2 (ix2 p u)
      = Cert.Hop.agg (adj0 V c) (feat0 V c) ⟨(t.val / 8) * 1024 + p.val, row0_lt t p⟩ u := by
    intro u
    rw [acc0_nat V c t.val t.isLt p u]
    unfold closed0 Cert.Hop.agg
    rw [Cert.Hop.sum_blocks]
    refine Finset.sum_congr rfl fun kb _ => ?_
    have hk : kb.val ≤ t.val % 8 := by have := kb.isLt; omega
    rw [if_pos hk]
    rfl
  have key : (∑ u : Fin 128, (outsAt0 V c t.val t.isLt).2 (ix2 p u) * blkW0 V c t (ix2 u q)) + blkB0 V c t (ix1 q)
      = Cert.Hop.lin (Cert.Hop.agg (adj0 V c) (feat0 V c) ⟨(t.val / 8) * 1024 + p.val, row0_lt t p⟩) (wt0 V c) (bias0 V c) q := by
    unfold Cert.Hop.lin
    exact congrArg₂ (· + ·)
      (Finset.sum_congr rfl fun u _ => congrArg₂ (· * ·) (hz u) (blkW0_apply V c t u q))
      (blkB0_apply V c t q)
  rw [key]
  rfl

end Ideal0

/-! ## Hop 1: the accumulator and the output's buffer after each point, from the point before (any float values) -/

section Any1
variable (V : (c : Dev nD) → (b : Ref sig .tc) → Buf (Elt F) ((c : Thread nD τ).loc b))

/-- The four input blocks at point t, at their literal shapes. -/
def blkA1 (c : Dev nD) (t : Fin cfg1.N) : Vec F S1024x2048 .f32 := iblk1 V c 0 t
def blkY1 (c : Dev nD) (t : Fin cfg1.N) : Vec F S16384x128 .f32 := iblk1 V c 1 t
def blkW1 (c : Dev nD) (t : Fin cfg1.N) : Vec F S128x128 .f32 := iblk1 V c 2 t
def blkB1 (c : Dev nD) (t : Fin cfg1.N) : Vec F S128 .f32 := iblk1 V c 3 t

theorem blkA1_apply (c : Dev nD) (t : Fin cfg1.N) (p : Fin 1024) (kk : Fin 2048) :
    blkA1 V c t (ix2 p kk) = (V c main_arg1 : S16384x16384.Idx → Elt F .f32) (ix2 ⟨(t.val / 8) * 1024 + p.val, row1_lt t p⟩ ⟨(t.val % 8) * 2048 + kk.val, col1_lt t kk⟩) :=
  iblk1_adj V c t p kk
theorem blkY1_apply (c : Dev nD) (t : Fin cfg1.N) (k : Fin 16384) (q : Fin 128) :
    blkY1 V c t (ix2 k q) = (V c main_v0 : S16384x128.Idx → Elt F .f32) (ix2 k q) :=
  iblk1_y V c t k q
theorem blkW1_apply (c : Dev nD) (t : Fin cfg1.N) (u q : Fin 128) :
    blkW1 V c t (ix2 u q) = (V c main_arg2 : S128x128.Idx → Elt F .f32) (ix2 u q) :=
  iblk1_w V c t u q
theorem blkB1_apply (c : Dev nD) (t : Fin cfg1.N) (q : Fin 128) :
    blkB1 V c t (ix1 q) = (V c main_arg3 : S128.Idx → Elt F .f32) (ix1 q) :=
  iblk1_b V c t q

theorem prev1 (t : Fin cfg1.N) : t.val - 1 < cfg1.N := Nat.lt_of_le_of_lt (Nat.sub_le _ _) t.isLt

/-- The three case equations of the accumulation, over those blocks. -/
theorem outsAt1_A' (c : Dev nD) (t : Fin cfg1.N) (h0 : t.val % 8 = 0) (h1 : ¬t.val % 8 = 7) :
    outsAt1 V c t.val t.isLt = (out1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (blkA1 V c t) (blkY1 V c t) (blkW1 V c t) (blkB1 V c t), sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (blkA1 V c t) (blkY1 V c t) (blkW1 V c t) (blkB1 V c t)) :=
  outsAt1_A V c t h0 h1
theorem outsAt1_B' (c : Dev nD) (t : Fin cfg1.N) (h0 : ¬t.val % 8 = 0) (h1 : ¬t.val % 8 = 7) :
    outsAt1 V c t.val t.isLt = (out1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (blkA1 V c t) (blkY1 V c t) (blkW1 V c t) (blkB1 V c t) (outsAt1 V c (t.val - 1) (prev1 t)).2, sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (blkA1 V c t) (blkY1 V c t) (blkW1 V c t) (blkB1 V c t) (outsAt1 V c (t.val - 1) (prev1 t)).2) :=
  outsAt1_B V c t h0 h1
theorem outsAt1_C' (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (blkA1 V c t) (blkY1 V c t) (blkW1 V c t) (blkB1 V c t) (outsAt1 V c (t.val - 1) (prev1 t)).2, sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (blkA1 V c t) (blkY1 V c t) (blkW1 V c t) (blkB1 V c t) (outsAt1 V c (t.val - 1) (prev1 t)).2) :=
  outsAt1_C V c t h0 h1

/-- At column block 0 the accumulator leaves at the zero block plus the point's block product. -/
theorem snd1_first (c : Dev nD) (t : Fin cfg1.N) (h0 : t.val % 8 = 0) :
    (outsAt1 V c t.val t.isLt).2 = k1_pay2 (blkA1 V c t) (yblk1 (grid1.coords t) (blkY1 V c t)) k1_pay1 :=
  have h1 : ¬t.val % 8 = 7 := by omega
  (snd_of_eq (outsAt1_A' V c t h0 h1)).trans
    (sout1_A_eq c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (blkA1 V c t) (blkY1 V c t) (blkW1 V c t) (blkB1 V c t))

/-- At a later column block it leaves at what the point before left plus the point's block product. -/
theorem snd1_next (c : Dev nD) (t : Fin cfg1.N) (h0 : ¬t.val % 8 = 0) :
    (outsAt1 V c t.val t.isLt).2
      = k1_pay2 (blkA1 V c t) (yblk1 (grid1.coords t) (blkY1 V c t)) (outsAt1 V c (t.val - 1) (prev1 t)).2 := by
  by_cases h1 : t.val % 8 = 7
  · exact (snd_of_eq (outsAt1_C' V c t h0 h1)).trans
      (sout1_C_eq c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (blkA1 V c t) (blkY1 V c t) (blkW1 V c t) (blkB1 V c t) (outsAt1 V c (t.val - 1) (prev1 t)).2)
  · exact (snd_of_eq (outsAt1_B' V c t h0 h1)).trans
      (sout1_B_eq c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (blkA1 V c t) (blkY1 V c t) (blkW1 V c t) (blkB1 V c t) (outsAt1 V c (t.val - 1) (prev1 t)).2)

/-- At column block 7 the output's buffer leaves at the finished rows of the accumulator as the point leaves it. -/
theorem fst1_last (c : Dev nD) (t : Fin cfg1.N) (h7 : t.val % 8 = 7) :
    (outsAt1 V c t.val t.isLt).1 = k1_pay3 (outsAt1 V c t.val t.isLt).2 (blkW1 V c t) (blkB1 V c t) := by
  have h0 : ¬t.val % 8 = 0 := by omega
  refine ((fst_of_eq (outsAt1_C' V c t h0 h7)).trans
    (out1_C_eq c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h7) (blkA1 V c t) (blkY1 V c t) (blkW1 V c t) (blkB1 V c t) (outsAt1 V c (t.val - 1) (prev1 t)).2)).trans ?_
  rw [snd1_next V c t h0]

end Any1

/-! ## Hop 1 at the ideal values: the accumulation in closed form -/

section Ideal1
variable (V : (c : Dev nD) → (b : Ref sig .tc) → Buf (Elt Ideal) ((c : Thread nD τ).loc b))

/-- The hop's four arrays as it finds them. -/
abbrev adj1 (c : Dev nD) : FVec Ideal Cert.Hop.SNN .f32 := V c main_arg1
abbrev feat1 (c : Dev nD) : FVec Ideal Cert.Hop.SNU .f32 := V c main_v0
abbrev wt1 (c : Dev nD) : FVec Ideal Cert.Hop.SUU .f32 := V c main_arg2
abbrev bias1 (c : Dev nD) : FVec Ideal Cert.Hop.SU .f32 := V c main_arg3

/-- The point's column block is its number modulo 8. -/
theorem coord1_1 : ∀ t : Fin cfg1.N, ((grid1.coords t) 1).val = t.val % 8 :=
  (by decide +kernel : ∀ t : Fin grid1.N, ((grid1.coords t) 1).val = t.val % 8)

/-- Row r of the matrix against column q of the features, over the 2048 columns of column block kb. -/
def part1 (c : Dev nD) (r : Fin 16384) (q : Fin 128) (kb : Fin 8) : EReal :=
  ∑ kk : Fin 2048, adj1 V c (ix2 r (Cert.Hop.blk kb kk)) * feat1 V c (ix2 (Cert.Hop.blk kb kk) q)

/-- The point's block product at (p, q) is that partial sum for the point's row and column block. -/
theorem point1 (c : Dev nD) (t : Fin cfg1.N) (p : Fin 1024) (q : Fin 128) (kb : Fin 8) (hkb : kb.val = t.val % 8) :
    (∑ kk : Fin 2048, blkA1 V c t (ix2 p kk) * yblk1 (grid1.coords t) (blkY1 V c t) (ix2 kk q))
      = part1 V c ⟨(t.val / 8) * 1024 + p.val, row1_lt t p⟩ q kb := by
  unfold part1
  refine Finset.sum_congr rfl fun kk _ => ?_
  have hc : ((grid1.coords t) 1).val * 2048 + kk.val < 16384 := by rw [coord1_1 t]; exact col1_lt t kk
  have e1 : (⟨(t.val % 8) * 2048 + kk.val, col1_lt t kk⟩ : Fin 16384) = Cert.Hop.blk kb kk :=
    Fin.ext (by show (t.val % 8) * 2048 + kk.val = kb.val * 2048 + kk.val; rw [hkb])
  have e2 : (⟨((grid1.coords t) 1).val * 2048 + kk.val, hc⟩ : Fin 16384) = Cert.Hop.blk kb kk :=
    Fin.ext (by show ((grid1.coords t) 1).val * 2048 + kk.val = kb.val * 2048 + kk.val; rw [coord1_1 t, hkb])
  exact congrArg₂ (· * ·)
    ((blkA1_apply V c t p kk).trans (congrArg (fun k => adj1 V c (ix2 ⟨(t.val / 8) * 1024 + p.val, row1_lt t p⟩ k)) e1))
    ((yblk1_apply (grid1.coords t) (blkY1 V c t) kk q hc).trans
      ((blkY1_apply V c t _ q).trans (congrArg (fun k => feat1 V c (ix2 k q)) e2)))

/-- One accumulation step from the zero block, at (p, q): the block product alone. -/
theorem pay2_first1 (a : Vec Ideal S1024x2048 .f32) (y : Vec Ideal S2048x128 .f32) (p : Fin 1024) (q : Fin 128) :
    k1_pay2 (F := Ideal) a y (k1_pay1 (F := Ideal)) (ix2 p q) = ∑ k : Fin 2048, a (ix2 p k) * y (ix2 k q) := by
  refine (PayValue.pay2_1 a y (k1_pay1 (F := Ideal)) p q).trans ?_
  rw [PayValue.pay1_1]
  exact zero_add _

/-- The accumulator after point n, at (p, q): the partial sums of the column blocks done so far in the point's row block. -/
def closed1 (c : Dev nD) (n : ℕ) (hn : n < cfg1.N) (p : Fin 1024) (q : Fin 128) : EReal :=
  ∑ kb : Fin 8, if kb.val ≤ n % 8 then part1 V c ⟨(n / 8) * 1024 + p.val, row1_lt ⟨n, hn⟩ p⟩ q kb else 0

theorem acc1_first (c : Dev nD) (t : Fin cfg1.N) (h0 : t.val % 8 = 0) (p : Fin 1024) (q : Fin 128) :
    (outsAt1 V c t.val t.isLt).2 (ix2 p q) = closed1 V c t.val t.isLt p q := by
  have hj : t.val % 8 < 8 := Nat.mod_lt _ (by decide)
  refine (congrFun (snd1_first V c t h0) (ix2 p q)).trans ?_
  refine (pay2_first1 _ _ p q).trans ?_
  refine (point1 V c t p q ⟨t.val % 8, hj⟩ rfl).trans ?_
  unfold closed1
  have hzero : (∑ k : Fin 8, if k.val < t.val % 8 then part1 V c ⟨(t.val / 8) * 1024 + p.val, row1_lt ⟨t.val, t.isLt⟩ p⟩ q k else 0) = 0 :=
    Finset.sum_eq_zero fun k _ => if_neg (by rw [h0]; exact Nat.not_lt_zero _)
  rw [sum_le_eq _ (t.val % 8) hj, hzero, zero_add]

theorem acc1_next (c : Dev nD) (t : Fin cfg1.N) (h0 : ¬t.val % 8 = 0) (p : Fin 1024) (q : Fin 128)
    (ih : ∀ (p : Fin 1024) (q : Fin 128), (outsAt1 V c (t.val - 1) (prev1 t)).2 (ix2 p q) = closed1 V c (t.val - 1) (prev1 t) p q) :
    (outsAt1 V c t.val t.isLt).2 (ix2 p q) = closed1 V c t.val t.isLt p q := by
  have hj : t.val % 8 < 8 := Nat.mod_lt _ (by decide)
  refine (congrFun (snd1_next V c t h0) (ix2 p q)).trans ?_
  refine (PayValue.pay2_1 _ _ _ p q).trans ?_
  rw [ih p q, point1 V c t p q ⟨t.val % 8, hj⟩ rfl]
  unfold closed1
  rw [sum_le_eq _ (t.val % 8) hj]
  refine congrArg (· + _) (Finset.sum_congr rfl fun k _ => ?_)
  have hrow : (⟨((t.val - 1) / 8) * 1024 + p.val, row1_lt ⟨t.val - 1, prev1 t⟩ p⟩ : Fin 16384)
      = ⟨(t.val / 8) * 1024 + p.val, row1_lt ⟨t.val, t.isLt⟩ p⟩ :=
    Fin.ext (by show ((t.val - 1) / 8) * 1024 + p.val = (t.val / 8) * 1024 + p.val; omega)
  rw [hrow]
  by_cases hk : k.val < t.val % 8
  · have hk' : k.val ≤ (t.val - 1) % 8 := by omega
    rw [if_pos hk, if_pos hk']
  · have hk' : ¬k.val ≤ (t.val - 1) % 8 := by omega
    rw [if_neg hk, if_neg hk']

/-- THE ACCUMULATION in closed form, by induction on the point. -/
theorem acc1_nat (c : Dev nD) : ∀ (n : ℕ) (hn : n < cfg1.N) (p : Fin 1024) (q : Fin 128),
    (outsAt1 V c n hn).2 (ix2 p q) = closed1 V c n hn p q := by
  intro n
  induction n with
  | zero => intro hn p q; exact acc1_first V c ⟨0, hn⟩ (Nat.zero_mod _) p q
  | succ n ih =>
    intro hn p q
    by_cases h0 : (n + 1) % 8 = 0
    · exact acc1_first V c ⟨n + 1, hn⟩ h0 p q
    · exact acc1_next V c ⟨n + 1, hn⟩ h0 p q (fun p' q' => ih (Nat.lt_of_succ_lt hn) p' q')

/-- The accumulator after point t at (p, q): the sum, over the column blocks up to the point's, of the row's products. -/
theorem acc1 (c : Dev nD) (t : Fin cfg1.N) (p : Fin 1024) (q : Fin 128) :
    (outsAt1 V c t.val t.isLt).2 (ix2 p q)
      = ∑ kb : Fin 8, if kb.val ≤ t.val % 8 then
          ∑ kk : Fin 2048, adj1 V c (ix2 ⟨(t.val / 8) * 1024 + p.val, row1_lt t p⟩ (Cert.Hop.blk kb kk))
            * feat1 V c (ix2 (Cert.Hop.blk kb kk) q)
        else 0 :=
  acc1_nat V c t.val t.isLt p q

/-- At column block 7 the output's buffer holds the hop's value on the point's rows. -/
theorem out1 (c : Dev nD) (t : Fin cfg1.N) (h7 : t.val % 8 = 7) (p : Fin 1024) (q : Fin 128) :
    (outsAt1 V c t.val t.isLt).1 (ix2 p q)
      = Cert.Hop.hop (V c main_arg1) (V c main_v0) (V c main_arg2) (V c main_arg3) (ix2 ⟨(t.val / 8) * 1024 + p.val, row1_lt t p⟩ q) := by
  refine (congrFun (fst1_last V c t h7) (ix2 p q)).trans ?_
  refine (PayValue.pay3_1 _ _ _ p q).trans ?_
  have hz : ∀ u : Fin 128, (outsAt1 V c t.val t.isLt).2 (ix2 p u)
      = Cert.Hop.agg (adj1 V c) (feat1 V c) ⟨(t.val / 8) * 1024 + p.val, row1_lt t p⟩ u := by
    intro u
    rw [acc1_nat V c t.val t.isLt p u]
    unfold closed1 Cert.Hop.agg
    rw [Cert.Hop.sum_blocks]
    refine Finset.sum_congr rfl fun kb _ => ?_
    have hk : kb.val ≤ t.val % 8 := by have := kb.isLt; omega
    rw [if_pos hk]
    rfl
  have key : (∑ u : Fin 128, (outsAt1 V c t.val t.isLt).2 (ix2 p u) * blkW1 V c t (ix2 u q)) + blkB1 V c t (ix1 q)
      = Cert.Hop.lin (Cert.Hop.agg (adj1 V c) (feat1 V c) ⟨(t.val / 8) * 1024 + p.val, row1_lt t p⟩) (wt1 V c) (bias1 V c) q := by
    unfold Cert.Hop.lin
    exact congrArg₂ (· + ·)
      (Finset.sum_congr rfl fun u _ => congrArg₂ (· * ·) (hz u) (blkW1_apply V c t u q))
      (blkB1_apply V c t q)
  rw [key]
  rfl

end Ideal1

end Cert.KernelIdeal.HopVal
-- ==== Proof.KI.Value.lean ====
import proofs.«178023_j43181601194858_1_alg».proof.Proof.KI.Regions
import proofs.«178023_j43181601194858_1_alg».proof.Proof.KI.Blocks
import proofs.«178023_j43181601194858_1_alg».proof.Proof.KI.Acc
import proofs.«178023_j43181601194858_1_alg».proof.Proof.HopSpec

noncomputable section

namespace Cert.KernelIdeal.HopVal

open Cert.KernelIdeal Cert.KernelIdeal.Gen Cert.KernelIdeal.Hop
open Idealize.ShloMosaic Idealize.ShloMosaic.TcCoe Idealize.ShloMosaic.ValueIdx
open Idealize.SL.Sem

/-! # The kernel's result at the ideal instance

Each hop leaves in its output array `swish ((adj · y) · W + b)` of the arrays it finds: the accumulator holds, after
column block `k`, the partial row-by-column products over the first `k + 1` blocks of 2048 columns; after the eighth the
whole product; and the rows stored at column block 7 tile the array. The second hop finds the first hop's result as
its `y`. -/

variable (V : (c : Dev nD) → (b : Ref sig .tc) → Buf (Elt Ideal) ((c : Thread nD τ).loc b))

/-- Hop 0's output array after the hop, as one function of the arrays it found. -/
theorem hop0_array (c : Dev nD) :
    (dat0 V c).arrAt 4 cfg0.N = Cert.Hop.hop (V c main_arg1) (V c main_arg0) (V c main_arg2) (V c main_arg3) :=
  final0 V c _ fun t h7 p q => out0 V c t h7 p q

/-- Hop 1's output array after the hop, as one function of the arrays it found. -/
theorem hop1_array (c : Dev nD) :
    (dat1 V c).arrAt 4 cfg1.N = Cert.Hop.hop (V c main_arg1) (V c main_v0) (V c main_arg2) (V c main_arg3) :=
  final1 V c _ fun t h7 p q => out1 V c t h7 p q

variable (m : (ℓ : Loc nD τ sig) → Buf (Elt Ideal) ℓ) (ρ : Dev nD → PrngReg)

/-- The program's result: two hops over the launch contents. -/
theorem result_eq (c : Dev nD) :
    W2 m c (Proc.devRef .tc main_v1)
      = Cert.Hop.hop (m ((c : Thread nD τ).loc main_arg1))
          (Cert.Hop.hop (m ((c : Thread nD τ).loc main_arg1)) (m ((c : Thread nD τ).loc main_arg0)) (m ((c : Thread nD τ).loc main_arg2)) (m ((c : Thread nD τ).loc main_arg3)))
          (m ((c : Thread nD τ).loc main_arg2)) (m ((c : Thread nD τ).loc main_arg3)) := by
  rw [W2_main_v1, hop1_array, V1_main_v0, hop0_array, V1_main_arg1, V1_main_arg2, V1_main_arg3]

/-- THE VALUE RUN: every weakly fair execution terminates with the result array at two hops of the arguments and the
    arguments unchanged. -/
theorem run : θ_run defs (onTc (τ := τ) (main (F := Ideal))) ⟨m, fun _ => 0, ρ⟩ (fun r => ∀ c : Dev nD,
      r.2.mem ((c.tc : Thread nD τ).loc main_v1)
        = Cert.Hop.hop (m ((c.tc : Thread nD τ).loc main_arg1))
            (Cert.Hop.hop (m ((c.tc : Thread nD τ).loc main_arg1)) (m ((c.tc : Thread nD τ).loc main_arg0)) (m ((c.tc : Thread nD τ).loc main_arg2)) (m ((c.tc : Thread nD τ).loc main_arg3)))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v1 (by decide))).trans (result_eq m c),
     (h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c)⟩) (run_all m ρ)

end Cert.KernelIdeal.HopVal

end
-- ==== Proof.RefValue.lean ====
import proofs.«178023_j43181601194858_1_alg».proof.Proof.Gen.ReferenceIdeal.Read
import proofs.«178023_j43181601194858_1_alg».proof.Proof.HopSpec
import Idealize.ShloMosaic.Lib.IdealHost

/-! The reference computes two hops: each of its two halves (two whole matrix products, the bias, and
`z * (1 / (1 + exp (-z)))`) is `Cert.Hop.hop`, read element by element. -/

noncomputable section

open Idealize.ShloMosaic Idealize.ShloMosaic.ValueIdx
open Cert.ReferenceIdeal Cert.ReferenceIdeal.Read
open scoped BigOperators

namespace Cert.ReferenceIdeal.RefValue

/-! ## The index maps of the reference's operations, on coordinates -/

theorem lidx0 (r : Fin 16384) (u : Fin 128) (k : Fin 16384) : lidx_main_v0 (ix2 r u) k = ix2 r k :=
  funext fun a => Fin.ext (by match a with | ⟨0, _⟩ => rfl | ⟨1, _⟩ => rfl)
theorem ridx0 (r : Fin 16384) (u : Fin 128) (k : Fin 16384) : ridx_main_v0 (ix2 r u) k = ix2 k u :=
  funext fun a => Fin.ext (by match a with | ⟨0, _⟩ => rfl | ⟨1, _⟩ => rfl)
theorem lidx1 (r : Fin 16384) (q : Fin 128) (k : Fin 128) : lidx_main_v1 (ix2 r q) k = ix2 r k :=
  funext fun a => Fin.ext (by match a with | ⟨0, _⟩ => rfl | ⟨1, _⟩ => rfl)
theorem ridx1 (r : Fin 16384) (q : Fin 128) (k : Fin 128) : ridx_main_v1 (ix2 r q) k = ix2 k q :=
  funext fun a => Fin.ext (by match a with | ⟨0, _⟩ => rfl | ⟨1, _⟩ => rfl)
theorem idx23 (r : Fin 16384) (q : Fin 128) : idx_main_v2 (idx_main_v3 (ix2 r q)) = ix1 q :=
  funext fun a => Fin.ext (by match a with | ⟨0, _⟩ => rfl)
theorem lidx6 (r : Fin 16384) (u : Fin 128) (k : Fin 16384) : lidx_main_v6 (ix2 r u) k = ix2 r k :=
  funext fun a => Fin.ext (by match a with | ⟨0, _⟩ => rfl | ⟨1, _⟩ => rfl)
theorem ridx6 (r : Fin 16384) (u : Fin 128) (k : Fin 16384) : ridx_main_v6 (ix2 r u) k = ix2 k u :=
  funext fun a => Fin.ext (by match a with | ⟨0, _⟩ => rfl | ⟨1, _⟩ => rfl)
theorem lidx7 (r : Fin 16384) (q : Fin 128) (k : Fin 128) : lidx_main_v7 (ix2 r q) k = ix2 r k :=
  funext fun a => Fin.ext (by match a with | ⟨0, _⟩ => rfl | ⟨1, _⟩ => rfl)
theorem ridx7 (r : Fin 16384) (q : Fin 128) (k : Fin 128) : ridx_main_v7 (ix2 r q) k = ix2 k q :=
  funext fun a => Fin.ext (by match a with | ⟨0, _⟩ => rfl | ⟨1, _⟩ => rfl)
theorem idx89 (r : Fin 16384) (q : Fin 128) : idx_main_v8 (idx_main_v9 (ix2 r q)) = ix1 q :=
  funext fun a => Fin.ext (by match a with | ⟨0, _⟩ => rfl)

/-! ## The first half is one hop -/

theorem hop1_apply (x : (⟨S16384x128, .f32⟩ : BufTy).Contents (Elt Ideal))
    (adj : (⟨S16384x16384, .f32⟩ : BufTy).Contents (Elt Ideal))
    (W : (⟨S128x128, .f32⟩ : BufTy).Contents (Elt Ideal)) (b : (⟨S128, .f32⟩ : BufTy).Contents (Elt Ideal))
    (r : Fin 16384) (q : Fin 128) :
    val_main_v5 (F := Ideal) x adj W b (ix2 r q) = Cert.Hop.hop adj x W b (ix2 r q) := by
  rw [Cert.Hop.hop_apply]
  simp only [val_main_v5_apply, val_main_call0_v5_apply, val_main_call0_v4_apply, val_main_call0_cst_0_apply,
    val_main_call0_v3_apply, val_main_call0_v2_apply, val_main_call0_cst_apply, val_main_call0_v1_apply,
    val_main_call0_v0_apply, val_main_v4_apply, val_main_v3_apply, val_main_v2_apply, val_main_v1_apply,
    val_main_v0_apply]
  simp only [Ideal.mulf_def, Ideal.addf_def, Ideal.hostDivf_def, Ideal.hostUnary_exp_def, Ideal.hostNegf_def,
    Ideal.negf_def, Ideal.ofBits_def, Ideal.ofBits_one_f32]
  simp only [lidx0, ridx0, lidx1, ridx1, idx23]
  simp only [Cert.Hop.swish, Cert.Hop.lin, Cert.Hop.agg, Ideal.logistic]

theorem hop1 (x : (⟨S16384x128, .f32⟩ : BufTy).Contents (Elt Ideal))
    (adj : (⟨S16384x16384, .f32⟩ : BufTy).Contents (Elt Ideal))
    (W : (⟨S128x128, .f32⟩ : BufTy).Contents (Elt Ideal)) (b : (⟨S128, .f32⟩ : BufTy).Contents (Elt Ideal)) :
    val_main_v5 (F := Ideal) x adj W b = Cert.Hop.hop adj x W b := by
  funext i
  obtain ⟨r, q, rfl⟩ : ∃ (r : Fin 16384) (q : Fin 128), i = ix2 r q := ⟨i 0, i 1, eq_ix2 i⟩
  exact hop1_apply x adj W b r q

/-! ## The second half is one hop of the first half's result -/

theorem hop2_apply (x : (⟨S16384x128, .f32⟩ : BufTy).Contents (Elt Ideal))
    (adj : (⟨S16384x16384, .f32⟩ : BufTy).Contents (Elt Ideal))
    (W : (⟨S128x128, .f32⟩ : BufTy).Contents (Elt Ideal)) (b : (⟨S128, .f32⟩ : BufTy).Contents (Elt Ideal))
    (r : Fin 16384) (q : Fin 128) :
    val_main_v11 (F := Ideal) x adj W b (ix2 r q)
      = Cert.Hop.hop adj (val_main_v5 (F := Ideal) x adj W b) W b (ix2 r q) := by
  rw [Cert.Hop.hop_apply]
  simp only [val_main_v11_apply, val_main_call1_v5_apply, val_main_call1_v4_apply, val_main_call1_cst_0_apply,
    val_main_call1_v3_apply, val_main_call1_v2_apply, val_main_call1_cst_apply, val_main_call1_v1_apply,
    val_main_call1_v0_apply, val_main_v10_apply, val_main_v9_apply, val_main_v8_apply, val_main_v7_apply,
    val_main_v6_apply]
  generalize val_main_v5 (F := Ideal) x adj W b = y
  simp only [Ideal.mulf_def, Ideal.addf_def, Ideal.hostDivf_def, Ideal.hostUnary_exp_def, Ideal.hostNegf_def,
    Ideal.negf_def, Ideal.ofBits_def, Ideal.ofBits_one_f32]
  simp only [lidx6, ridx6, lidx7, ridx7, idx89]
  simp only [Cert.Hop.swish, Cert.Hop.lin, Cert.Hop.agg, Ideal.logistic]

/-- The reference is two hops. -/
theorem ref_eq (x : (⟨Cert.ReferenceIdeal.S16384x128, .f32⟩ : BufTy).Contents (Elt Ideal))
    (adj : (⟨Cert.ReferenceIdeal.S16384x16384, .f32⟩ : BufTy).Contents (Elt Ideal))
    (W : (⟨Cert.ReferenceIdeal.S128x128, .f32⟩ : BufTy).Contents (Elt Ideal))
    (b : (⟨Cert.ReferenceIdeal.S128, .f32⟩ : BufTy).Contents (Elt Ideal)) :
    Cert.ReferenceIdeal.Read.val_main_v11 (F := Ideal) x adj W b
      = Cert.Hop.hop adj (Cert.Hop.hop adj x W b) W b := by
  funext i
  obtain ⟨r, q, rfl⟩ : ∃ (r : Fin 16384) (q : Fin 128), i = ix2 r q := ⟨i 0, i 1, eq_ix2 i⟩
  rw [hop2_apply, hop1]

end Cert.ReferenceIdeal.RefValue

end
-- ==== Proof.lean ====
/-
  Two message-passing hops, each `swish ((adj · y) · W + b)`, computed by a kernel that streams `adj` in blocks of
  1024 rows by 2048 columns, accumulates the block products of a row block in a scratch accumulator (zeroed at the first
  column block) and, at the last column block, multiplies by the weights, adds the bias and applies `z ↦ z · logistic z`;
  against whole matrix products and `z · (1 / (1 + exp (−z)))`. At the ideal instance a change of float format is the
  identity, a sum of extended reals may be regrouped in any way, and the logistic IS that quotient: the two programs
  compute one function of the arguments, with no use of finiteness.
  The frames: each hop's run, point by point, with the accumulator's contents carried between the points of a row block
  (KB/ for the word-level program, KI/ for the idealized one); the reference's run is its operations composed.
-/
import proofs.«178023_j43181601194858_1_alg».proof.Defs
import proofs.«178023_j43181601194858_1_alg».proof.Proof.Gen.Kernel
import proofs.«178023_j43181601194858_1_alg».proof.Proof.Gen.KernelIdeal
import proofs.«178023_j43181601194858_1_alg».proof.Proof.Gen.ReferenceIdeal
import proofs.«178023_j43181601194858_1_alg».proof.Proof.Gen.Pre_finite_inputs
import proofs.«178023_j43181601194858_1_alg».proof.Proof.Gen.ReferenceIdeal.Run
import proofs.«178023_j43181601194858_1_alg».proof.Proof.Gen.ReferenceIdeal.Read
import proofs.«178023_j43181601194858_1_alg».proof.Proof.KB.Regions
import proofs.«178023_j43181601194858_1_alg».proof.Proof.KI.Regions
import proofs.«178023_j43181601194858_1_alg».proof.Proof.KI.Value
import proofs.«178023_j43181601194858_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Hop.frame m ρ
theorem frame_ki : Cert.frame_KernelIdeal := fun m ρ _ => Cert.KernelIdeal.Hop.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with two hops of the arguments in their result arrays. -/
theorem algebraic : Cert.algebraic_KernelIdeal_ReferenceIdeal := by
  intro m ρ m' ρ' _ hagree
  refine ⟨_, Cert.KernelIdeal.HopVal.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v11_eq _ _ _ _).trans (Cert.ReferenceIdeal.RefValue.ref_eq _ _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
